-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S5632x2048 : Shape := ⟨2, ![5632, 2048]⟩
abbrev S5632 : Shape := ⟨1, ![5632]⟩
abbrev S2048x5632 : Shape := ⟨2, ![2048, 5632]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S5632 : S_.BroadcastsInDim S5632 (![] : Fin 0 → Fin S5632.rank)
  reducesTo_S5632_S_d0 : S5632.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x2048x2048 .f32) (main_arg1 : IVec S5632x2048 32) (main_arg2 : FVec F S5632 .f32) (main_arg3 : IVec S5632x2048 32) (main_arg4 : FVec F S5632 .f32) (main_arg5 : IVec S2048x5632 32) (main_arg6 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S5632 .f32 := Host.absf main_arg2
  let main_cst_0 : FVec F S_ .f32 := constant S_ .f32 0x7F800000#32
  let main_v5 : FVec F S5632 .f32 := broadcastInDim S5632 ![] bcast_S_S5632 main_cst_0
  let main_v6 : IVec S5632 1 := cmpf .olt main_v4 main_v5
  let main_c_1 : IVec S_ 1 := constantI S_ 1 1#1
  let main_v7 : IVec S_ 1 := (fun x v => Host.reduce IntOp.andi x v reducesTo_S5632_S_d0 h_S_) main_v6 main_c_1
  let main_v8 : IVec S_ 1 := andi main_v3 main_v7
  let main_v9 : FVec F S5632 .f32 := Host.absf main_arg4
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S2048 .f32 := Host.absf main_arg6
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x2048x2048 : Shape := ⟨3, ![4, 2048, 2048]⟩
abbrev S5632x2048 : Shape := ⟨2, ![5632, 2048]⟩
abbrev S5632 : Shape := ⟨1, ![5632]⟩
abbrev S2048x5632 : Shape := ⟨2, ![2048, 5632]⟩
abbrev S2048 : Shape := ⟨1, ![2048]⟩
abbrev S8192x2048 : Shape := ⟨2, ![8192, 2048]⟩
abbrev S5632x1 : Shape := ⟨2, ![5632, 1]⟩
abbrev S2048x1 : Shape := ⟨2, ![2048, 1]⟩
abbrev S512x2048 : Shape := ⟨2, ![512, 2048]⟩
abbrev S256x2048 : Shape := ⟨2, ![256, 2048]⟩
abbrev S256x1 : Shape := ⟨2, ![256, 1]⟩
abbrev S2048x256 : Shape := ⟨2, ![2048, 256]⟩
abbrev S512x256 : Shape := ⟨2, ![512, 256]⟩

abbrev nBuf : Space → Nat
  | .hbm => 13
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S5632x2048, .i32⟩
  | .hbm, ⟨2, _⟩ => ⟨S5632, .f32⟩
  | .hbm, ⟨3, _⟩ => ⟨S5632x2048, .i32⟩
  | .hbm, ⟨4, _⟩ => ⟨S5632, .f32⟩
  | .hbm, ⟨5, _⟩ => ⟨S2048x5632, .i32⟩
  | .hbm, ⟨6, _⟩ => ⟨S2048, .f32⟩
  | .hbm, ⟨7, _⟩ => ⟨S8192x2048, .f32⟩
  | .hbm, ⟨8, _⟩ => ⟨S5632x1, .f32⟩
  | .hbm, ⟨9, _⟩ => ⟨S5632x1, .f32⟩
  | .hbm, ⟨10, _⟩ => ⟨S2048x1, .f32⟩
  | .hbm, ⟨11, _⟩ => ⟨S8192x2048, .f32⟩
  | .hbm, ⟨12, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S256x2048, .i32⟩
  | .local _ .vmem, ⟨3, _⟩ => ⟨S256x2048, .i32⟩
  | .local _ .vmem, ⟨4, _⟩ => ⟨S256x1, .f32⟩
  | .local _ .vmem, ⟨5, _⟩ => ⟨S256x1, .f32⟩
  | .local _ .vmem, ⟨6, _⟩ => ⟨S256x2048, .i32⟩
  | .local _ .vmem, ⟨7, _⟩ => ⟨S256x2048, .i32⟩
  | .local _ .vmem, ⟨8, _⟩ => ⟨S256x1, .f32⟩
  | .local _ .vmem, ⟨9, _⟩ => ⟨S256x1, .f32⟩
  | .local _ .vmem, ⟨10, _⟩ => ⟨S2048x256, .i32⟩
  | .local _ .vmem, ⟨11, _⟩ => ⟨S2048x256, .i32⟩
  | .local _ .vmem, ⟨12, _⟩ => ⟨S2048x1, .f32⟩
  | .local _ .vmem, ⟨13, _⟩ => ⟨S512x2048, .f32⟩
  | .local _ .vmem, ⟨14, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v37 : BitVec 1 := Scalar.cmpi .eq arg1 c0_i32
  let v38 : BitVec 32 := Scalar.extui v37
  let c0_i32_18 : BitVec 32 := 0#32
  let v39 : BitVec 1 := Scalar.cmpi .ne v38 c0_i32_18
  v39

def k0_cond2 (i : grid0.Coords) : BitVec 1 :=
  let arg1 : BitVec 32 := BitVec.ofNat 32 (i 1).val
  let c0_i32_19 : BitVec 32 := 0#32
  let v40 : BitVec 1 := Scalar.cmpi .ne arg1 c0_i32_19
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4x2048x2048_S8192x2048 : S4x2048x2048.ShapeCasts S8192x2048
  shapeCasts_S5632_S5632x1 : S5632.ShapeCasts S5632x1
  shapeCasts_S2048_S2048x1 : S2048.ShapeCasts S2048x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  shapeCasts_S8192x2048_S4x2048x2048 : S8192x2048.ShapeCasts S4x2048x2048
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S5632x2048.size a
  hwx0_1 : ∀ i : grid0.Coords, EltTy.bits .i32 = 32 ∨ (Rect.block (s := S5632x2048) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S5632x1.size a
  hwx0_2 : ∀ i : grid0.Coords, EltTy.bits .f32 = 32 ∨ (Rect.block (s := S5632x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S5632x2048.size a
  hwx0_3 : ∀ i : grid0.Coords, EltTy.bits .i32 = 32 ∨ (Rect.block (s := S5632x2048) S256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S5632x1.size a
  hwx0_4 : ∀ i : grid0.Coords, EltTy.bits .f32 = 32 ∨ (Rect.block (s := S5632x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x5632.size a
  hwx0_5 : ∀ i : grid0.Coords, EltTy.bits .i32 = 32 ∨ (Rect.block (s := S2048x5632) S2048x256.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S2048x1.size a
  hwx0_6 : ∀ i : grid0.Coords, EltTy.bits .f32 = 32 ∨ (Rect.block (s := S2048x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .f32 = 32 ∨ (Rect.block (s := S8192x2048) S512x2048.size (cc0_transform_7 i) (hinb0_7 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2048x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S5632x2048 : Shape := ⟨2, ![5632, 2048]⟩
abbrev S5632 : Shape := ⟨1, ![5632]⟩
abbrev S2048x5632 : Shape := ⟨2, ![2048, 5632]⟩
abbrev S2048 : Shape := ⟨1, ![2048]⟩
abbrev S_ : Shape := ⟨0, ![]⟩
abbrev S5632x1 : Shape := ⟨2, ![5632, 1]⟩
abbrev S4x2048x5632 : Shape := ⟨3, ![4, 2048, 5632]⟩
abbrev S2048x1 : Shape := ⟨2, ![2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S5632x2048, .i32⟩
  | .hbm, ⟨2, _⟩ => ⟨S5632, .f32⟩
  | .hbm, ⟨3, _⟩ => ⟨S5632x2048, .i32⟩
  | .hbm, ⟨4, _⟩ => ⟨S5632, .f32⟩
  | .hbm, ⟨5, _⟩ => ⟨S2048x5632, .i32⟩
  | .hbm, ⟨6, _⟩ => ⟨S2048, .f32⟩
  | .hbm, ⟨7, _⟩ => ⟨S5632x2048, .f32⟩
  | .hbm, ⟨8, _⟩ => ⟨S_, .f32⟩
  | .hbm, ⟨9, _⟩ => ⟨S5632x2048, .f32⟩
  | .hbm, ⟨10, _⟩ => ⟨S5632x2048, .f32⟩
  | .hbm, ⟨11, _⟩ => ⟨S5632x1, .f32⟩
  | .hbm, ⟨12, _⟩ => ⟨S5632x2048, .f32⟩
  | .hbm, ⟨13, _⟩ => ⟨S5632x2048, .f32⟩
  | .hbm, ⟨14, _⟩ => ⟨S4x2048x5632, .f32⟩
  | .hbm, ⟨15, _⟩ => ⟨S4x2048x5632, .f32⟩
  | .hbm, ⟨16, _⟩ => ⟨S4x2048x5632, .f32⟩
  | .hbm, ⟨17, _⟩ => ⟨S_, .f32⟩
  | .hbm, ⟨18, _⟩ => ⟨S4x2048x5632, .f32⟩
  | .hbm, ⟨19, _⟩ => ⟨S4x2048x5632, .f32⟩
  | .hbm, ⟨20, _⟩ => ⟨S_, .f32⟩
  | .hbm, ⟨21, _⟩ => ⟨S4x2048x5632, .f32⟩
  | .hbm, ⟨22, _⟩ => ⟨S4x2048x5632, .f32⟩
  | .hbm, ⟨23, _⟩ => ⟨S4x2048x5632, .f32⟩
  | .hbm, ⟨24, _⟩ => ⟨S5632x2048, .f32⟩
  | .hbm, ⟨25, _⟩ => ⟨S_, .f32⟩
  | .hbm, ⟨26, _⟩ => ⟨S5632x2048, .f32⟩
  | .hbm, ⟨27, _⟩ => ⟨S5632x2048, .f32⟩
  | .hbm, ⟨28, _⟩ => ⟨S5632x1, .f32⟩
  | .hbm, ⟨29, _⟩ => ⟨S5632x2048, .f32⟩
  | .hbm, ⟨30, _⟩ => ⟨S5632x2048, .f32⟩
  | .hbm, ⟨31, _⟩ => ⟨S4x2048x5632, .f32⟩
  | .hbm, ⟨32, _⟩ => ⟨S4x2048x5632, .f32⟩
  | .hbm, ⟨33, _⟩ => ⟨S2048x5632, .f32⟩
  | .hbm, ⟨34, _⟩ => ⟨S_, .f32⟩
  | .hbm, ⟨35, _⟩ => ⟨S2048x5632, .f32⟩
  | .hbm, ⟨36, _⟩ => ⟨S2048x5632, .f32⟩
  | .hbm, ⟨37, _⟩ => ⟨S2048x1, .f32⟩
  | .hbm, ⟨38, _⟩ => ⟨S2048x5632, .f32⟩
  | .hbm, ⟨39, _⟩ => ⟨S2048x5632, .f32⟩
  | .hbm, ⟨40, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]

class Facts₀ : Prop where
  bcast_S_S5632x2048 : S_.BroadcastsInDim S5632x2048 (![] : Fin 0 → Fin S5632x2048.rank)
  bcast_S5632_S5632x1_0 : S5632.BroadcastsInDim S5632x1 (![0] : Fin 1 → Fin S5632x1.rank)
  bcast_S5632x1_S5632x2048_0_1 : S5632x1.BroadcastsInDim S5632x2048 (![0, 1] : Fin 2 → Fin S5632x2048.rank)
  bcast_S_S4x2048x5632 : S_.BroadcastsInDim S4x2048x5632 (![] : Fin 0 → Fin S4x2048x5632.rank)
  bcast_S_S2048x5632 : S_.BroadcastsInDim S2048x5632 (![] : Fin 0 → Fin S2048x5632.rank)
  bcast_S2048_S2048x1_0 : S2048.BroadcastsInDim S2048x1 (![0] : Fin 1 → Fin S2048x1.rank)
  bcast_S2048x1_S2048x5632_0_1 : S2048x1.BroadcastsInDim S2048x5632 (![0, 1] : Fin 2 → Fin S2048x5632.rank)
  dot_S4x2048x2048_S5632x2048_S4x2048x5632_2_1_01_0_n_n_wf : DotDims.WF S4x2048x2048 S5632x2048 S4x2048x5632 [2] [1] [0, 1] [0] [] []
  dot_S4x2048x5632_S2048x5632_S4x2048x2048_2_1_01_0_n_n_wf : DotDims.WF S4x2048x5632 S2048x5632 S4x2048x2048 [2] [1] [0, 1] [0] [] []

variable [Facts₀]

def dot_S4x2048x2048_S5632x2048_S4x2048x5632_2_1_01_0_n_n : DotDims S4x2048x2048 S5632x2048 S4x2048x5632 where
  lhsContracting := [2]
  rhsContracting := [1]
  lhsNonContracting := [0, 1]
  rhsNonContracting := [0]
  lhsBatch := []
  rhsBatch := []
  wf := dot_S4x2048x2048_S5632x2048_S4x2048x5632_2_1_01_0_n_n_wf
def dot_S4x2048x5632_S2048x5632_S4x2048x2048_2_1_01_0_n_n : DotDims S4x2048x5632 S2048x5632 S4x2048x2048 where
  lhsContracting := [2]
  rhsContracting := [1]
  lhsNonContracting := [0, 1]
  rhsNonContracting := [0]
  lhsBatch := []
  rhsBatch := []
  wf := dot_S4x2048x5632_S2048x5632_S4x2048x2048_2_1_01_0_n_n_wf

class Facts : Prop extends Facts₀ where

variable [Facts]
-- ==== Proof.BitsBody.lean ====
/-
  The frame of the kernel as printed, at the word level: it runs to its end, faults nowhere and leaves its arguments unchanged.

  The grid is 16 row tiles by 22 hidden-axis blocks. At a point the body loads a 512-row block of activations, the
  256-row blocks of the gate and up weight codes with their scales, and the matching 256-column block of the
  down-projection's codes with its scales, and forms the block's partial product, a [512, 2048] array. The output's
  staging buffer is carried along a row tile's run over the 22 blocks: at the run's first point (second coordinate 0)
  the partial product is stored into it; at each later point the buffer is read, the partial product added, and the
  sum stored back. Only after the run's last point is the buffer written back to the output array.

  So the body has two cases, told apart by the second coordinate alone, and exactly one of its two branches is taken
  at every point. Each case is run once on arbitrary whole staging buffers; the contents of the output's buffer after
  each point are defined by recursion on the point; and the pipeline's launch theorem turns the per-point triples
  into the run of the whole program, with the host reshape after the region.
-/
import proofs.«131068_j50474455662978_1_alg».proof.Proof.Gen.Kernel.Frame
import proofs.«131068_j50474455662978_1_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- One store through the whole rectangle of a buffer leaves its payload, whatever the buffer held. -/
theorem read_store_whole {sig' : RefSig} {κ : Kind} {sp : Space} (v : View sig' κ sp S512x2048 .f32)
    (f : v.ty.Contents (Elt F)) (inb : ∀ a, (![0, 0] : Fin 2 → Nat) a + S512x2048.size a ≤ S512x2048.size a)
    (w : S512x2048.Idx → Elt F .f32) :
    v.read (Elt F) (v.writes (Elt F) f [(⟨Rect.unit ![0, 0] S512x2048.size inb, w⟩ : View.Piece (Elt F) S512x2048 .f32)]) = w := by
  rw [View.read_writes_eq_canon _ _ _ (fun y => ⟨_, List.mem_singleton_self _, View.mem_set_unit_zero hz inb y⟩),
    View.canon_unit_zero hz]

/-! ## The two branches, decided over the grid -/

/-- The branch that stores the block's partial product is taken exactly at the first point of each row tile's run
    over the hidden axis (the second grid coordinate is 0). -/
theorem first_iff : ∀ t : Fin cfg0.N, k0_cond1 (grid0.coords t) = 1#1 ↔ t.val % 22 = 0 :=
  (by decide +kernel : ∀ t : Fin grid0.N, k0_cond1 (grid0.coords t) = 1#1 ↔ t.val % 22 = 0)

/-- The branch that adds the partial product to what the buffer holds is taken at every other point. -/
theorem later_iff : ∀ t : Fin cfg0.N, k0_cond2 (grid0.coords t) = 1#1 ↔ ¬ t.val % 22 = 0 :=
  (by decide +kernel : ∀ t : Fin grid0.N, k0_cond2 (grid0.coords t) = 1#1 ↔ ¬ t.val % 22 = 0)

/-- One of the two branches is taken at every point: the output's buffer is stored into everywhere. -/
theorem live7 (i : grid0.Coords) : cfg0.idle 7 i = false :=
  (by decide : ∀ k : Fin 22,
    (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false) (i 1)

set_option maxHeartbeats 1000000 in
/-- THE FIRST POINT OF A ROW TILE'S RUN (second grid coordinate 0). On whole staging buffers, the seven inputs' at their
    contents and the output's at anything, the body runs to its end leaving the inputs' buffers as they were and the
    output's buffer at the block's partial product of the inputs. -/
theorem run_first (c : Dev nD) (i : grid0.Coords) (arg2 : Memref sig .tc .vmem S512x2048 .f32) (harg2 : arg2.IsWhole) (arg3 : Memref sig .tc .vmem S256x2048 .i32) (harg3 : arg3.IsWhole) (arg4 : Memref sig .tc .vmem S256x1 .f32) (harg4 : arg4.IsWhole) (arg5 : Memref sig .tc .vmem S256x2048 .i32) (harg5 : arg5.IsWhole) (arg6 : Memref sig .tc .vmem S256x1 .f32) (harg6 : arg6.IsWhole) (arg7 : Memref sig .tc .vmem S2048x256 .i32) (harg7 : arg7.IsWhole) (arg8 : Memref sig .tc .vmem S2048x1 .f32) (harg8 : arg8.IsWhole) (arg9 : Memref sig .tc .vmem S512x2048 .f32) (harg9 : arg9.IsWhole)
    (h1 : k0_cond1 i = 1#1) (h2 : ¬ k0_cond2 i = 1#1) (x0 : Vec F S512x2048 .f32) (x1 : Vec F S256x2048 .i32) (x2 : Vec F S256x1 .f32) (x3 : Vec F S256x2048 .i32) (x4 : Vec F S256x1 .f32) (x5 : Vec F S2048x256 .i32) (x6 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 x0 x1 x2 x3 x4 x5 x6)) -∗ K ⟨⟩))
      ⊢ wp frame (wpE (defs₀ (F := F)) Variants.none c none) E (cc0__qmlp_kernel i arg2 harg2 arg3 harg3 arg4 harg4 arg5 harg5 arg6 harg6 arg7 harg7 arg8 harg8 arg9 harg9) K := by
  simp only [cc0__qmlp_kernel_eq_skeleton]; unfold cc0__qmlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact h1 | exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  iexists _; isplitr
  swap; · iexact H7
  ipureintro
  refine (read_store_whole _ _ _ _).trans ?_
  sl_unfold_words
  simp only [View.readAt_eq_ld, harg2.read_unread, harg3.read_unread, harg4.read_unread, harg5.read_unread,
    harg6.read_unread, harg7.read_unread, harg8.read_unread, View.ld_unit_zero (S := S512x2048) hz,
    View.ld_unit_zero (S := S256x2048) hz, View.ld_unit_zero (S := S256x1) hz, View.ld_unit_zero (S := S2048x256) hz,
    View.ld_unit_zero (S := S2048x1) hz]

set_option maxHeartbeats 1000000 in
/-- EVERY LATER POINT OF THE RUN (second grid coordinate not 0). The output's buffer holds the running contents `xo`;
    the body leaves it at `xo` plus the block's partial product, the inputs' buffers as they were. -/
theorem run_later (c : Dev nD) (i : grid0.Coords) (arg2 : Memref sig .tc .vmem S512x2048 .f32) (harg2 : arg2.IsWhole) (arg3 : Memref sig .tc .vmem S256x2048 .i32) (harg3 : arg3.IsWhole) (arg4 : Memref sig .tc .vmem S256x1 .f32) (harg4 : arg4.IsWhole) (arg5 : Memref sig .tc .vmem S256x2048 .i32) (harg5 : arg5.IsWhole) (arg6 : Memref sig .tc .vmem S256x1 .f32) (harg6 : arg6.IsWhole) (arg7 : Memref sig .tc .vmem S2048x256 .i32) (harg7 : arg7.IsWhole) (arg8 : Memref sig .tc .vmem S2048x1 .f32) (harg8 : arg8.IsWhole) (arg9 : Memref sig .tc .vmem S512x2048 .f32) (harg9 : arg9.IsWhole)
    (h1 : ¬ k0_cond1 i = 1#1) (h2 : k0_cond2 i = 1#1) (x0 : Vec F S512x2048 .f32) (x1 : Vec F S256x2048 .i32) (x2 : Vec F S256x1 .f32) (x3 : Vec F S256x2048 .i32) (x4 : Vec F S256x1 .f32) (x5 : Vec F S2048x256 .i32) (x6 : Vec F S2048x1 .f32) (xo : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 (k0_pay2 x0 x1 x2 x3 x4 x5 x6) xo)) -∗ K ⟨⟩))
      ⊢ wp frame (wpE (defs₀ (F := F)) Variants.none c none) E (cc0__qmlp_kernel i arg2 harg2 arg3 harg3 arg4 harg4 arg5 harg5 arg6 harg6 arg7 harg7 arg8 harg8 arg9 harg9) K := by
  simp only [cc0__qmlp_kernel_eq_skeleton]; unfold cc0__qmlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact h1 | exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  iexists _; isplitr
  swap; · iexact H7
  ipureintro
  refine (read_store_whole _ _ _ _).trans ?_
  sl_unfold_words
  simp only [View.readAt_eq_ld, harg2.read_unread, harg3.read_unread, harg4.read_unread, harg5.read_unread,
    harg6.read_unread, harg7.read_unread, harg8.read_unread, harg9.read_unread, View.ld_unit_zero (S := S512x2048) hz,
    View.ld_unit_zero (S := S256x2048) hz, View.ld_unit_zero (S := S256x1) hz, View.ld_unit_zero (S := S2048x256) hz,
    View.ld_unit_zero (S := S2048x1) hz]

/-! ## What the output's buffer holds after each point -/

/-- The block's partial product at point `t`: the body's arithmetic on the seven input blocks there. -/
def part (c : Dev nD) (t : Fin cfg0.N) : Vec F S512x2048 .f32 :=
  k0_pay2 (iblk m c 0 t) (iblk m c 1 t) (iblk m c 2 t) (iblk m c 3 t) (iblk m c 4 t) (iblk m c 5 t) (iblk m c 6 t)

/-- The running contents of the output's buffer: at the first point of a row tile's run over the hidden axis the block's
    partial product, at each later point what the point before left plus the block's partial product. -/
def acc (c : Dev nD) : (n : ℕ) → n < cfg0.N → Vec F S512x2048 .f32
  | 0, hn => part m c ⟨0, hn⟩
  | n + 1, hn =>
    if (n + 1) % 22 = 0 then part m c ⟨n + 1, hn⟩
    else k0_pay1 (part m c ⟨n + 1, hn⟩) (acc c n (Nat.lt_of_succ_lt hn))

theorem acc_first (c : Dev nD) (t : Fin cfg0.N) (h0 : t.val % 22 = 0) : acc m c t.val t.isLt = part m c t := by
  obtain ⟨n, hn⟩ := t
  cases n with
  | zero => rfl
  | succ n => exact (if_pos h0).trans rfl

theorem acc_later (c : Dev nD) (t : Fin cfg0.N) (h0 : ¬ t.val % 22 = 0) :
    acc m c t.val t.isLt
      = k0_pay1 (part m c t) (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x2048 .f32 := win0_7.stage (cfg0.slots t 7)
abbrev hs7 (t : Fin cfg0.N) : (ms7 t).IsWhole := hstage0_7 ((cfg0.slots t 7).cast nbuf0_7)

/-- On core `c`: the arrays as the region finds them; after the body at point `t` each input's buffer still at its
    block and the output's at the running contents; nothing else carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = acc m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later point of a run the output's buffer holds what the point before left: the buffer is written back only
    after a run's last point, and the body stores into it at every point. -/
theorem before_7_later (c : Dev nD) (t : Fin cfg0.N) (h0 : ¬ t.val % 22 = 0) (d) :
    (dats m 0 c).before 7 t d = acc m c (t.val - 1) (Nat.lt_of_le_of_lt (Nat.sub_le _ _) t.isLt) := by
  have hN : t.val < 352 := lt_of_lt_of_eq t.isLt (show cfg0.N = 352 from N_0)
  rw [Dat.before_out_kept _ 7 rfl t (by omega)
    (Bool.eq_false_iff.mpr fun h => by have := (flush0_7 _).mp h; dsimp only at this; omega)
    live7 (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- The body at any point: the inputs' buffers hold their blocks; the point is the first of its run or a later one, and
    at a later one the output's buffer holds what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 22 = 0
  · rw [acc_first m c t h0]
    unfold part
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ ((first_iff t).mpr h0)
      (fun h => ((later_iff t).mp h) h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc_later m c t h0]
    simp only [before_7_later m c t h0]
    unfold part
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ (fun h => h0 ((first_iff t).mp h))
      ((later_iff t).mpr h0) (iblk m c 0 t) (iblk m c 1 t) (iblk m c 2 t) (iblk m c 3 t) (iblk m c 4 t) (iblk m c 5 t) (iblk m c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Kernel.Body

end
-- ==== Proof.BitsFrame.lean ====
/-
  The launch of the kernel as printed, at the word level: the per-point triples of its body, at every one of the 352 grid points, give the run of
  the whole program — the host reshapes, the region, the host reshape after it — and with it the frame: the program
  terminates, faults nowhere, and its seven argument arrays end as launched. The run also names what the output
  array ends holding: what the proof data say was written back, block by block.
-/
import proofs.«131068_j50474455662978_1_alg».proof.Proof.BitsBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The library's body obligation, at every point. -/
theorem body_obligation (c : Dev nD) : BodyObligation (dats (F := F) m 0 c) (defs₀ (F := F)) Variants.none () Set.univ := fun t => by
  rw [bigSep_W0, bigSep_W0]
  rw [live7 (cfg0.grid.coords t)]
  exact sound_body m c t

/-! ## The run and the frame -/

set_option backward.isDefEq.respectTransparency.types false in
/-- From any memory with zero counters every weakly fair execution of the program terminates, every array of the
    pipeline ending at what the proof data say was written back into it, every other buffer as the host lines after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.IdealBody.lean ====
/-
  The frame of the idealized kernel: it runs to its end, faults nowhere and leaves its arguments unchanged.

  The grid is 16 row tiles by 22 hidden-axis blocks. At a point the body loads a 512-row block of activations, the
  256-row blocks of the gate and up weight codes with their scales, and the matching 256-column block of the
  down-projection's codes with its scales, and forms the block's partial product, a [512, 2048] array. The output's
  staging buffer is carried along a row tile's run over the 22 blocks: at the run's first point (second coordinate 0)
  the partial product is stored into it; at each later point the buffer is read, the partial product added, and the
  sum stored back. Only after the run's last point is the buffer written back to the output array.

  So the body has two cases, told apart by the second coordinate alone, and exactly one of its two branches is taken
  at every point. Each case is run once on arbitrary whole staging buffers; the contents of the output's buffer after
  each point are defined by recursion on the point; and the pipeline's launch theorem turns the per-point triples
  into the run of the whole program, with the host reshape after the region.
-/
import proofs.«131068_j50474455662978_1_alg».proof.Proof.Gen.KernelIdeal.Frame
import proofs.«131068_j50474455662978_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- One store through the whole rectangle of a buffer leaves its payload, whatever the buffer held. -/
theorem read_store_whole {sig' : RefSig} {κ : Kind} {sp : Space} (v : View sig' κ sp S512x2048 .f32)
    (f : v.ty.Contents (Elt F)) (inb : ∀ a, (![0, 0] : Fin 2 → Nat) a + S512x2048.size a ≤ S512x2048.size a)
    (w : S512x2048.Idx → Elt F .f32) :
    v.read (Elt F) (v.writes (Elt F) f [(⟨Rect.unit ![0, 0] S512x2048.size inb, w⟩ : View.Piece (Elt F) S512x2048 .f32)]) = w := by
  rw [View.read_writes_eq_canon _ _ _ (fun y => ⟨_, List.mem_singleton_self _, View.mem_set_unit_zero hz inb y⟩),
    View.canon_unit_zero hz]

/-! ## The two branches, decided over the grid -/

/-- The branch that stores the block's partial product is taken exactly at the first point of each row tile's run
    over the hidden axis (the second grid coordinate is 0). -/
theorem first_iff : ∀ t : Fin cfg0.N, k0_cond1 (grid0.coords t) = 1#1 ↔ t.val % 22 = 0 :=
  (by decide +kernel : ∀ t : Fin grid0.N, k0_cond1 (grid0.coords t) = 1#1 ↔ t.val % 22 = 0)

/-- The branch that adds the partial product to what the buffer holds is taken at every other point. -/
theorem later_iff : ∀ t : Fin cfg0.N, k0_cond2 (grid0.coords t) = 1#1 ↔ ¬ t.val % 22 = 0 :=
  (by decide +kernel : ∀ t : Fin grid0.N, k0_cond2 (grid0.coords t) = 1#1 ↔ ¬ t.val % 22 = 0)

/-- One of the two branches is taken at every point: the output's buffer is stored into everywhere. -/
theorem live7 (i : grid0.Coords) : cfg0.idle 7 i = false :=
  (by decide : ∀ k : Fin 22,
    (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false) (i 1)

set_option maxHeartbeats 1000000 in
/-- THE FIRST POINT OF A ROW TILE'S RUN (second grid coordinate 0). On whole staging buffers, the seven inputs' at their
    contents and the output's at anything, the body runs to its end leaving the inputs' buffers as they were and the
    output's buffer at the block's partial product of the inputs. -/
theorem run_first (c : Dev nD) (i : grid0.Coords) (arg2 : Memref sig .tc .vmem S512x2048 .f32) (harg2 : arg2.IsWhole) (arg3 : Memref sig .tc .vmem S256x2048 .i32) (harg3 : arg3.IsWhole) (arg4 : Memref sig .tc .vmem S256x1 .f32) (harg4 : arg4.IsWhole) (arg5 : Memref sig .tc .vmem S256x2048 .i32) (harg5 : arg5.IsWhole) (arg6 : Memref sig .tc .vmem S256x1 .f32) (harg6 : arg6.IsWhole) (arg7 : Memref sig .tc .vmem S2048x256 .i32) (harg7 : arg7.IsWhole) (arg8 : Memref sig .tc .vmem S2048x1 .f32) (harg8 : arg8.IsWhole) (arg9 : Memref sig .tc .vmem S512x2048 .f32) (harg9 : arg9.IsWhole)
    (h1 : k0_cond1 i = 1#1) (h2 : ¬ k0_cond2 i = 1#1) (x0 : Vec F S512x2048 .f32) (x1 : Vec F S256x2048 .i32) (x2 : Vec F S256x1 .f32) (x3 : Vec F S256x2048 .i32) (x4 : Vec F S256x1 .f32) (x5 : Vec F S2048x256 .i32) (x6 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 x0 x1 x2 x3 x4 x5 x6)) -∗ K ⟨⟩))
      ⊢ wp frame (wpE (defs₀ (F := F)) Variants.none c none) E (cc0__qmlp_kernel i arg2 harg2 arg3 harg3 arg4 harg4 arg5 harg5 arg6 harg6 arg7 harg7 arg8 harg8 arg9 harg9) K := by
  simp only [cc0__qmlp_kernel_eq_skeleton]; unfold cc0__qmlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact h1 | exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  iexists _; isplitr
  swap; · iexact H7
  ipureintro
  refine (read_store_whole _ _ _ _).trans ?_
  sl_unfold_words
  simp only [View.readAt_eq_ld, harg2.read_unread, harg3.read_unread, harg4.read_unread, harg5.read_unread,
    harg6.read_unread, harg7.read_unread, harg8.read_unread, View.ld_unit_zero (S := S512x2048) hz,
    View.ld_unit_zero (S := S256x2048) hz, View.ld_unit_zero (S := S256x1) hz, View.ld_unit_zero (S := S2048x256) hz,
    View.ld_unit_zero (S := S2048x1) hz]

set_option maxHeartbeats 1000000 in
/-- EVERY LATER POINT OF THE RUN (second grid coordinate not 0). The output's buffer holds the running contents `xo`;
    the body leaves it at `xo` plus the block's partial product, the inputs' buffers as they were. -/
theorem run_later (c : Dev nD) (i : grid0.Coords) (arg2 : Memref sig .tc .vmem S512x2048 .f32) (harg2 : arg2.IsWhole) (arg3 : Memref sig .tc .vmem S256x2048 .i32) (harg3 : arg3.IsWhole) (arg4 : Memref sig .tc .vmem S256x1 .f32) (harg4 : arg4.IsWhole) (arg5 : Memref sig .tc .vmem S256x2048 .i32) (harg5 : arg5.IsWhole) (arg6 : Memref sig .tc .vmem S256x1 .f32) (harg6 : arg6.IsWhole) (arg7 : Memref sig .tc .vmem S2048x256 .i32) (harg7 : arg7.IsWhole) (arg8 : Memref sig .tc .vmem S2048x1 .f32) (harg8 : arg8.IsWhole) (arg9 : Memref sig .tc .vmem S512x2048 .f32) (harg9 : arg9.IsWhole)
    (h1 : ¬ k0_cond1 i = 1#1) (h2 : k0_cond2 i = 1#1) (x0 : Vec F S512x2048 .f32) (x1 : Vec F S256x2048 .i32) (x2 : Vec F S256x1 .f32) (x3 : Vec F S256x2048 .i32) (x4 : Vec F S256x1 .f32) (x5 : Vec F S2048x256 .i32) (x6 : Vec F S2048x1 .f32) (xo : Vec F S512x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 (k0_pay2 x0 x1 x2 x3 x4 x5 x6) xo)) -∗ K ⟨⟩))
      ⊢ wp frame (wpE (defs₀ (F := F)) Variants.none c none) E (cc0__qmlp_kernel i arg2 harg2 arg3 harg3 arg4 harg4 arg5 harg5 arg6 harg6 arg7 harg7 arg8 harg8 arg9 harg9) K := by
  simp only [cc0__qmlp_kernel_eq_skeleton]; unfold cc0__qmlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec (disch := first | exact h1 | exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  iexists _; isplitr
  swap; · iexact H7
  ipureintro
  refine (read_store_whole _ _ _ _).trans ?_
  sl_unfold_words
  simp only [View.readAt_eq_ld, harg2.read_unread, harg3.read_unread, harg4.read_unread, harg5.read_unread,
    harg6.read_unread, harg7.read_unread, harg8.read_unread, harg9.read_unread, View.ld_unit_zero (S := S512x2048) hz,
    View.ld_unit_zero (S := S256x2048) hz, View.ld_unit_zero (S := S256x1) hz, View.ld_unit_zero (S := S2048x256) hz,
    View.ld_unit_zero (S := S2048x1) hz]

/-! ## What the output's buffer holds after each point -/

/-- The block's partial product at point `t`: the body's arithmetic on the seven input blocks there. -/
def part (c : Dev nD) (t : Fin cfg0.N) : Vec F S512x2048 .f32 :=
  k0_pay2 (iblk m c 0 t) (iblk m c 1 t) (iblk m c 2 t) (iblk m c 3 t) (iblk m c 4 t) (iblk m c 5 t) (iblk m c 6 t)

/-- The running contents of the output's buffer: at the first point of a row tile's run over the hidden axis the block's
    partial product, at each later point what the point before left plus the block's partial product. -/
def acc (c : Dev nD) : (n : ℕ) → n < cfg0.N → Vec F S512x2048 .f32
  | 0, hn => part m c ⟨0, hn⟩
  | n + 1, hn =>
    if (n + 1) % 22 = 0 then part m c ⟨n + 1, hn⟩
    else k0_pay1 (part m c ⟨n + 1, hn⟩) (acc c n (Nat.lt_of_succ_lt hn))

theorem acc_first (c : Dev nD) (t : Fin cfg0.N) (h0 : t.val % 22 = 0) : acc m c t.val t.isLt = part m c t := by
  obtain ⟨n, hn⟩ := t
  cases n with
  | zero => rfl
  | succ n => exact (if_pos h0).trans rfl

theorem acc_later (c : Dev nD) (t : Fin cfg0.N) (h0 : ¬ t.val % 22 = 0) :
    acc m c t.val t.isLt
      = k0_pay1 (part m c t) (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x2048 .f32 := win0_7.stage (cfg0.slots t 7)
abbrev hs7 (t : Fin cfg0.N) : (ms7 t).IsWhole := hstage0_7 ((cfg0.slots t 7).cast nbuf0_7)

/-- On core `c`: the arrays as the region finds them; after the body at point `t` each input's buffer still at its
    block and the output's at the running contents; nothing else carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = acc m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later point of a run the output's buffer holds what the point before left: the buffer is written back only
    after a run's last point, and the body stores into it at every point. -/
theorem before_7_later (c : Dev nD) (t : Fin cfg0.N) (h0 : ¬ t.val % 22 = 0) (d) :
    (dats m 0 c).before 7 t d = acc m c (t.val - 1) (Nat.lt_of_le_of_lt (Nat.sub_le _ _) t.isLt) := by
  have hN : t.val < 352 := lt_of_lt_of_eq t.isLt (show cfg0.N = 352 from N_0)
  rw [Dat.before_out_kept _ 7 rfl t (by omega)
    (Bool.eq_false_iff.mpr fun h => by have := (flush0_7 _).mp h; dsimp only at this; omega)
    live7 (fun _ _ => rfl)]
  dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- The body at any point: the inputs' buffers hold their blocks; the point is the first of its run or a later one, and
    at a later one the output's buffer holds what the point before left; the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 22 = 0
  · rw [acc_first m c t h0]
    unfold part
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ ((first_iff t).mpr h0)
      (fun h => ((later_iff t).mp h) h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc_later m c t h0]
    simp only [before_7_later m c t h0]
    unfold part
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ (fun h => h0 ((first_iff t).mp h))
      ((later_iff t).mpr h0) (iblk m c 0 t) (iblk m c 1 t) (iblk m c 2 t) (iblk m c 3 t) (iblk m c 4 t) (iblk m c 5 t) (iblk m c 6 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.KernelIdeal.Body

end
-- ==== Proof.IdealFrame.lean ====
/-
  The launch of the idealized kernel: the per-point triples of its body, at every one of the 352 grid points, give the run of
  the whole program — the host reshapes, the region, the host reshape after it — and with it the frame: the program
  terminates, faults nowhere, and its seven argument arrays end as launched. The run also names what the output
  array ends holding: what the proof data say was written back, block by block.
-/
import proofs.«131068_j50474455662978_1_alg».proof.Proof.IdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The library's body obligation, at every point. -/
theorem body_obligation (c : Dev nD) : BodyObligation (dats (F := F) m 0 c) (defs₀ (F := F)) Variants.none () Set.univ := fun t => by
  rw [bigSep_W0, bigSep_W0]
  rw [live7 (cfg0.grid.coords t)]
  exact sound_body m c t

/-! ## The run and the frame -/

set_option backward.isDefEq.respectTransparency.types false in
/-- From any memory with zero counters every weakly fair execution of the program terminates, every array of the
    pipeline ending at what the proof data say was written back into it, every other buffer as the host lines after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Spec.lean ====
/-
  The function both programs compute, index by index, over the extended reals.

  A quantized weight entry is its stored code, read as a signed integer, less the zero point 128, times the scale
  of its row. A projection entry is a row of activations against a row of such weights. A hidden entry is
  silu(gate) · up, where silu(u) = u · logistic(u) and gate, up are the two projections of the same activation row.
  An output entry is the row of hidden entries against a row of the down-projection's weights, summed over the
  whole hidden axis. The result at (b, s, n) is the output entry of activation row (b, s) and weight row n.
-/
import Idealize.ShloMosaic.PureOps.Ideal
import Idealize.ShloMosaic.Lib.ValueIdx

noncomputable section

namespace Cert.Spec

open Idealize.ShloMosaic Idealize.ShloMosaic.ValueIdx
open scoped BigOperators

/-- A weight entry: the code as a signed integer, less the zero point (the f32 word of 128), times the row's scale. -/
def wq (code : BitVec 32) (s : EReal) : EReal :=
  (((code.toInt : ℝ) : EReal) - Ideal.ofBits .f32 0x43000000#32) * s

/-- A projection entry: the sum over the contracted axis of activation times weight. -/
def proj {K : Nat} (xr : Fin K → EReal) (cr : Fin K → BitVec 32) (s : EReal) : EReal :=
  ∑ d : Fin K, xr d * wq (cr d) s

/-- A hidden entry: silu(gate) · up. -/
def hidden {K : Nat} (xr : Fin K → EReal) (cg cu : Fin K → BitVec 32) (sg su : EReal) : EReal :=
  (proj xr cg sg * Ideal.logistic (proj xr cg sg)) * proj xr cu su

/-- An output entry: hidden entries against one row of down-projection weights, over the whole hidden axis. -/
def outEntry {K HID : Nat} (xr : Fin K → EReal) (cg cu : Fin HID → Fin K → BitVec 32) (sg su : Fin HID → EReal)
    (cd : Fin HID → BitVec 32) (sd : EReal) : EReal :=
  ∑ H : Fin HID, hidden xr (cg H) (cu H) (sg H) (su H) * wq (cd H) sd

/-- The result array: at (b, s, n), the output entry of activation row (b, s) and down-projection row n. -/
def result (x : (⟨3, ![4, 2048, 2048]⟩ : Shape).Idx → EReal)
    (cg : (⟨2, ![5632, 2048]⟩ : Shape).Idx → BitVec 32) (sg : (⟨1, ![5632]⟩ : Shape).Idx → EReal)
    (cu : (⟨2, ![5632, 2048]⟩ : Shape).Idx → BitVec 32) (su : (⟨1, ![5632]⟩ : Shape).Idx → EReal)
    (cd : (⟨2, ![2048, 5632]⟩ : Shape).Idx → BitVec 32) (sd : (⟨1, ![2048]⟩ : Shape).Idx → EReal) :
    (⟨3, ![4, 2048, 2048]⟩ : Shape).Idx → EReal :=
  fun i => outEntry (fun d : Fin 2048 => x (ix3 (i 0) (i 1) d))
    (fun (H : Fin 5632) (d : Fin 2048) => cg (ix2 H d)) (fun (H : Fin 5632) (d : Fin 2048) => cu (ix2 H d))
    (fun H : Fin 5632 => sg (ix1 H)) (fun H : Fin 5632 => su (ix1 H))
    (fun H : Fin 5632 => cd (ix2 (i 2) H)) (sd (ix1 (i 2)))

end Cert.Spec

end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.RefValue.lean ====
/-
  What the reference computes, entry by entry, and why it is the specification's entry.

  The reference reads three quantized weight matrices. Each is a matrix of stored codes and a vector of one scale
  per row; an entry is the code read as a signed integer, less 128, times its row's scale. With these weights it
  takes, for the activation row (b, s) and a hidden index H,
      gate = Σ_d x[b, s, d] · Wg[H, d],      up = Σ_d x[b, s, d] · Wu[H, d],
  forms silu(gate) · up with silu(g) = g · (1 / (1 + exp (−g))), and contracts the hidden axis against the third
  matrix:
      out[b, s, n] = Σ_H (silu(gate) · up)[b, s, H] · Wd[n, H].
  Over the extended reals every one of these steps is the specification's own: a weight entry is `Spec.wq` (the
  broadcasts only repeat the zero point at every entry and a row's scale along its row), a contraction is the sum
  `Spec.proj` in the same order over the same 2048 terms, 1 / (1 + exp (−g)) is the logistic function by its
  definition, so the gated product is `Spec.hidden`, and the last contraction is `Spec.outEntry` over the same 5632
  terms. The two sides are therefore one expression at every index; nothing has to be finite and nothing is
  reassociated.
-/
import proofs.«131068_j50474455662978_1_alg».proof.Proof.Gen.ReferenceIdeal.Read
import proofs.«131068_j50474455662978_1_alg».proof.Proof.Spec
import proofs.«131068_j50474455662978_1_alg».proof.Proof.LibRealEntries

noncomputable section

namespace Cert.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Idealize.ShloMosaic.ValueIdx
open scoped BigOperators

/-! ## Weight entries

Each of the three weight matrices is built the same way: convert the code, subtract the zero point broadcast to
every entry, multiply by the scale vector broadcast along rows. At entry (r, k) that is (code − 128) · scale r. -/

/-- The gate weight at (H, d). -/
theorem gate_weight (x1 : (⟨S5632x2048, .i32⟩ : BufTy).Contents (Elt Ideal)) (x2 : (⟨S5632, .f32⟩ : BufTy).Contents (Elt Ideal))
    (H : Fin 5632) (d : Fin 2048) :
    val_main_v5 (F := Ideal) x1 x2 (ix2 H d) = Cert.Spec.wq (x1 (ix2 H d)) (x2 (ix1 H)) := by
  have e : idx_main_v3 (idx_main_v4 (ix2 H d)) = ix1 H := funext fun a => match a with | ⟨0, _⟩ => rfl
  rw [val_main_v5_apply, val_main_v2_apply, val_main_v0_apply, val_main_v1_apply, val_main_cst_apply,
    val_main_v4_apply, val_main_v3_apply, e]
  rfl

/-- The up weight at (H, d). -/
theorem up_weight (x3 : (⟨S5632x2048, .i32⟩ : BufTy).Contents (Elt Ideal)) (x4 : (⟨S5632, .f32⟩ : BufTy).Contents (Elt Ideal))
    (H : Fin 5632) (d : Fin 2048) :
    val_main_v13 (F := Ideal) x3 x4 (ix2 H d) = Cert.Spec.wq (x3 (ix2 H d)) (x4 (ix1 H)) := by
  have e : idx_main_v11 (idx_main_v12 (ix2 H d)) = ix1 H := funext fun a => match a with | ⟨0, _⟩ => rfl
  rw [val_main_v13_apply, val_main_v10_apply, val_main_v8_apply, val_main_v9_apply, val_main_cst_0_apply,
    val_main_v12_apply, val_main_v11_apply, e]
  rfl

/-- The down weight at (n, H). -/
theorem down_weight (x5 : (⟨S2048x5632, .i32⟩ : BufTy).Contents (Elt Ideal)) (x6 : (⟨S2048, .f32⟩ : BufTy).Contents (Elt Ideal))
    (n : Fin 2048) (H : Fin 5632) :
    val_main_v21 (F := Ideal) x5 x6 (ix2 n H) = Cert.Spec.wq (x5 (ix2 n H)) (x6 (ix1 n)) := by
  have e : idx_main_v19 (idx_main_v20 (ix2 n H)) = ix1 n := funext fun a => match a with | ⟨0, _⟩ => rfl
  rw [val_main_v21_apply, val_main_v18_apply, val_main_v16_apply, val_main_v17_apply, val_main_cst_1_apply,
    val_main_v20_apply, val_main_v19_apply, e]
  rfl

/-! ## The two projections

A contraction of the activations' last axis against a weight matrix's last axis: at (b, s, H) the sum over d of
x[b, s, d] times the weight at (H, d), the terms in the order of d. -/

/-- The gate projection at (b, s, H). -/
theorem gate_proj (x0 : (⟨S4x2048x2048, .f32⟩ : BufTy).Contents (Elt Ideal)) (x1 : (⟨S5632x2048, .i32⟩ : BufTy).Contents (Elt Ideal)) (x2 : (⟨S5632, .f32⟩ : BufTy).Contents (Elt Ideal))
    (b : Fin 4) (s : Fin 2048) (H : Fin 5632) :
    val_main_v6 (F := Ideal) x0 x1 x2 (ix3 b s H)
      = Cert.Spec.proj (fun d : Fin 2048 => x0 (ix3 b s d)) (fun d : Fin 2048 => x1 (ix2 H d)) (x2 (ix1 H)) := by
  rw [val_main_v6_apply]
  unfold Cert.Spec.proj
  refine Finset.sum_congr rfl fun d _ => ?_
  have el : lidx_main_v6 (ix3 b s H) d = ix3 b s d :=
    funext fun a => match a with | ⟨0, _⟩ => rfl | ⟨1, _⟩ => rfl | ⟨2, _⟩ => rfl
  have er : ridx_main_v6 (ix3 b s H) d = ix2 H d :=
    funext fun a => match a with | ⟨0, _⟩ => rfl | ⟨1, _⟩ => rfl
  rw [el, er, gate_weight]

/-- The up projection at (b, s, H). -/
theorem up_proj (x0 : (⟨S4x2048x2048, .f32⟩ : BufTy).Contents (Elt Ideal)) (x3 : (⟨S5632x2048, .i32⟩ : BufTy).Contents (Elt Ideal)) (x4 : (⟨S5632, .f32⟩ : BufTy).Contents (Elt Ideal))
    (b : Fin 4) (s : Fin 2048) (H : Fin 5632) :
    val_main_v14 (F := Ideal) x0 x3 x4 (ix3 b s H)
      = Cert.Spec.proj (fun d : Fin 2048 => x0 (ix3 b s d)) (fun d : Fin 2048 => x3 (ix2 H d)) (x4 (ix1 H)) := by
  rw [val_main_v14_apply]
  unfold Cert.Spec.proj
  refine Finset.sum_congr rfl fun d _ => ?_
  have el : lidx_main_v14 (ix3 b s H) d = ix3 b s d :=
    funext fun a => match a with | ⟨0, _⟩ => rfl | ⟨1, _⟩ => rfl | ⟨2, _⟩ => rfl
  have er : ridx_main_v14 (ix3 b s H) d = ix2 H d :=
    funext fun a => match a with | ⟨0, _⟩ => rfl | ⟨1, _⟩ => rfl
  rw [el, er, up_weight]

/-! ## The gated product

silu is spelt g · (1 / (1 + exp (−g))) with both ones the f32 word of 1; that quotient is the logistic function
by definition, so silu(gate) · up is the specification's hidden entry. -/

/-- The hidden entry at (b, s, H). -/
theorem hidden_entry (x0 : (⟨S4x2048x2048, .f32⟩ : BufTy).Contents (Elt Ideal)) (x1 : (⟨S5632x2048, .i32⟩ : BufTy).Contents (Elt Ideal)) (x2 : (⟨S5632, .f32⟩ : BufTy).Contents (Elt Ideal)) (x3 : (⟨S5632x2048, .i32⟩ : BufTy).Contents (Elt Ideal)) (x4 : (⟨S5632, .f32⟩ : BufTy).Contents (Elt Ideal))
    (b : Fin 4) (s : Fin 2048) (H : Fin 5632) :
    val_main_v15 (F := Ideal) x0 x1 x2 x3 x4 (ix3 b s H)
      = Cert.Spec.hidden (fun d : Fin 2048 => x0 (ix3 b s d)) (fun d : Fin 2048 => x1 (ix2 H d))
          (fun d : Fin 2048 => x3 (ix2 H d)) (x2 (ix1 H)) (x4 (ix1 H)) := by
  rw [val_main_v15_apply, val_main_v7_apply, val_main_call0_v5_apply, val_main_call0_v4_apply,
    val_main_call0_cst_0_apply, val_main_call0_v3_apply, val_main_call0_v2_apply, val_main_call0_cst_apply,
    val_main_call0_v1_apply, val_main_call0_v0_apply, gate_proj, up_proj]
  unfold Cert.Spec.hidden Ideal.logistic
  simp only [Ideal.mulf_def, Ideal.addf_def, Ideal.hostDivf_def, Ideal.hostUnary_exp_def, Ideal.hostNegf_def,
    Ideal.negf_def, Ideal.ofBits_def, Cert.Lib.RealEntries.ofBits_3F800000]

/-! ## The result -/

/-- The result at (b, s, n): the hidden entries of row (b, s) against row n of the down weights, over the whole
    hidden axis. -/
theorem reference_entry (x0 : (⟨S4x2048x2048, .f32⟩ : BufTy).Contents (Elt Ideal)) (x1 : (⟨S5632x2048, .i32⟩ : BufTy).Contents (Elt Ideal)) (x2 : (⟨S5632, .f32⟩ : BufTy).Contents (Elt Ideal)) (x3 : (⟨S5632x2048, .i32⟩ : BufTy).Contents (Elt Ideal)) (x4 : (⟨S5632, .f32⟩ : BufTy).Contents (Elt Ideal)) (x5 : (⟨S2048x5632, .i32⟩ : BufTy).Contents (Elt Ideal)) (x6 : (⟨S2048, .f32⟩ : BufTy).Contents (Elt Ideal))
    (b : Fin 4) (s : Fin 2048) (n : Fin 2048) :
    val_main_v22 (F := Ideal) x0 x1 x2 x3 x4 x5 x6 (ix3 b s n)
      = Cert.Spec.outEntry (fun d : Fin 2048 => x0 (ix3 b s d))
          (fun (H : Fin 5632) (d : Fin 2048) => x1 (ix2 H d)) (fun (H : Fin 5632) (d : Fin 2048) => x3 (ix2 H d))
          (fun H : Fin 5632 => x2 (ix1 H)) (fun H : Fin 5632 => x4 (ix1 H))
          (fun H : Fin 5632 => x5 (ix2 n H)) (x6 (ix1 n)) := by
  rw [val_main_v22_apply]
  unfold Cert.Spec.outEntry
  refine Finset.sum_congr rfl fun H _ => ?_
  have el : lidx_main_v22 (ix3 b s n) H = ix3 b s H :=
    funext fun a => match a with | ⟨0, _⟩ => rfl | ⟨1, _⟩ => rfl | ⟨2, _⟩ => rfl
  have er : ridx_main_v22 (ix3 b s n) H = ix2 n H :=
    funext fun a => match a with | ⟨0, _⟩ => rfl | ⟨1, _⟩ => rfl
  rw [el, er, hidden_entry, down_weight]

/-- The reference's last stage is the specification's result array. -/
theorem reference_eq (x0 : (⟨S4x2048x2048, .f32⟩ : BufTy).Contents (Elt Ideal)) (x1 : (⟨S5632x2048, .i32⟩ : BufTy).Contents (Elt Ideal)) (x2 : (⟨S5632, .f32⟩ : BufTy).Contents (Elt Ideal)) (x3 : (⟨S5632x2048, .i32⟩ : BufTy).Contents (Elt Ideal)) (x4 : (⟨S5632, .f32⟩ : BufTy).Contents (Elt Ideal)) (x5 : (⟨S2048x5632, .i32⟩ : BufTy).Contents (Elt Ideal)) (x6 : (⟨S2048, .f32⟩ : BufTy).Contents (Elt Ideal)) :
    val_main_v22 (F := Ideal) x0 x1 x2 x3 x4 x5 x6 = Cert.Spec.result x0 x1 x2 x3 x4 x5 x6 := by
  funext i
  obtain ⟨b, s, n, rfl⟩ : ∃ (b : Fin 4) (s : Fin 2048) (n : Fin 2048), i = ix3 b s n :=
    ⟨i 0, i 1, i 2, eq_ix3 i⟩
  exact reference_entry x0 x1 x2 x3 x4 x5 x6 b s n

/-- Every weakly fair execution of the reference ends with its result buffer holding the specification's result
    array of the arguments' launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = Cert.Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val_main_v22_eq _ _ _ _ _ _ _).trans (reference_eq _ _ _ _ _ _ _)), (h c).2⟩)
    (Cert.ReferenceIdeal.Value.run (F := Ideal) m ρ)

end Cert.RefValue

end
-- ==== Proof.LibRowDot.lean ====
/-
  General facts, at the exact instance (floats as extended reals), about a matrix product whose two operands are both
  contracted along their SECOND axis (x of [M, K] against w of [N, K], the product x · wᵀ of [M, N]), read at an index
  written by its coordinates, and about one row broadcast down a matrix.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowDot

open Idealize.ShloMosaic Idealize.ShloMosaic.ValueIdx

variable {α : Type} {M K N : Nat}

/-- A matrix product of an [M, K] matrix by the transpose of an [N, K] matrix into the zero accumulator, read at
    (p, q): the sum over the contracted coordinate k of x(p, k) · w(q, k). The four hypotheses say which operand
    coordinate each of the product's index maps takes from the output index and which from the contraction index. -/
theorem matmul_zero_rr {φ₁ φ₂ : FTy} (D : DotDims ⟨2, ![M, K]⟩ ⟨2, ![N, K]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (i 1).val)
    (hr1 : ∀ (i : (⟨2, ![M, N]⟩ : Shape).Idx) (c : D.contr.Idx), (D.rhsIdx i c 1).val = (c ⟨0, by omega⟩).val)
    (prec : Option ContractPrecision)
    (x : FVec Ideal ⟨2, ![M, K]⟩ φ₁) (w : FVec Ideal ⟨2, ![N, K]⟩ φ₂) (p : Fin M) (q : Fin N) :
    matmul D prec x w (constant ⟨2, ![M, N]⟩ .f32 0x00000000#32) (ix2 p q) = ∑ k : Fin K, x (ix2 p k) * w (ix2 q k) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A [1, N] row, cast to its own shape and broadcast down to [M, N], reads at (p, q) the row at (0, q). -/
theorem rowDown_rc (v : (⟨2, ![1, N]⟩ : Shape).Idx → α) (h1 : (⟨2, ![1, N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix2 (0 : Fin 1) q) := by
  rw [shapeCast_self]
  exact broadcastTo_1b_ab_apply v h2 p q

end Cert.LibRowDot

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.Payload.lean ====
/-
  The arithmetic of one block, read entry by entry, at the exact instance (floats are extended reals, a change of
  float format is the identity).

  The block's operands are a block of 512 activation rows x (each of 2048 entries), a block of 256 rows of gate codes
  and of up codes (each row of 2048 codes, with one scale per row), and the matching 256 columns of the
  down-projection's codes (2048 rows of 256 codes, with one scale per row).

  The entry (p, q) of the block's partial product is
      Σ_{k < 256} hidden(p, k) · wd(q, k),
  where wd(q, k) = (code_d(q, k) − 128) · scale_d(q) is a dequantized down-projection weight and
  hidden(p, k) = silu(gate(p, k)) · up(p, k), with gate(p, k) = Σ_{d < 2048} x(p, d) · wg(k, d) and
  up(p, k) = Σ_{d < 2048} x(p, d) · wu(k, d) over the dequantized gate and up weights.

  So the entry (p, q) depends on: row p of the activations, and no other activation row; every one of the 256 rows of
  the gate codes and of the up codes, whole, each with its own scale; and row q of the down-projection's codes (its
  256 entries in this block) with the scale of row q, and no other down-projection row. Rows of the output follow
  rows of the activations, columns of the output follow rows of the down-projection, and the block's 256 hidden
  positions are summed out.

  The accumulating step adds the partial product to what the output block already holds, entry by entry.
-/
import proofs.«131068_j50474455662978_1_alg».proof.Proof.Gen.KernelIdeal.Skeleton
import proofs.«131068_j50474455662978_1_alg».proof.Proof.Spec
import proofs.«131068_j50474455662978_1_alg».proof.Proof.LibRowDot
import proofs.«131068_j50474455662978_1_alg».proof.Proof.LibDense

noncomputable section

namespace Cert.Payload

open Idealize.ShloMosaic Idealize.ShloMosaic.ValueIdx Cert.KernelIdeal Cert.KernelIdeal.Gen
open scoped BigOperators

/-! ## Dequantized weights -/

/-- A dequantized gate or up weight at (k, d): the code read as a signed integer, less 128, times the scale of
    row k. -/
theorem deq_apply (v : Vec Ideal S256x2048 .i32) (s : Vec Ideal S256x1 .f32) (k : Fin 256) (d : Fin 2048) :
    mulf (subf (sitofp (F := Ideal) .f32 v) (broadcast S256x2048 (Scalar.ofBits (F := Ideal) .f32 0x43000000#32)))
        (broadcastTo S256x2048 (shapeCast S256x1 s shapeCasts_S256x1_S256x1) broadcasts_S256x1_S256x2048) (ix2 k d)
      = Cert.Spec.wq (v (ix2 k d)) (s (ix2 k 0)) := by
  rw [mulf_apply, subf_apply, sitofp_apply, broadcast_apply, shapeCast_self,
    Cert.LibDense.broadcastTo_a1_ab_apply]
  rfl

/-- A dequantized down-projection weight at (q, k): the code read as a signed integer, less 128, times the scale of
    row q. -/
theorem deq_down_apply (v : Vec Ideal S2048x256 .i32) (s : Vec Ideal S2048x1 .f32) (q : Fin 2048) (k : Fin 256) :
    mulf (subf (sitofp (F := Ideal) .f32 v) (broadcast S2048x256 (Scalar.ofBits (F := Ideal) .f32 0x43000000#32)))
        (broadcastTo S2048x256 (shapeCast S2048x1 s shapeCasts_S2048x1_S2048x1) broadcasts_S2048x1_S2048x256) (ix2 q k)
      = Cert.Spec.wq (v (ix2 q k)) (s (ix2 q 0)) := by
  rw [mulf_apply, subf_apply, sitofp_apply, broadcast_apply, shapeCast_self,
    Cert.LibDense.broadcastTo_a1_ab_apply]
  rfl

/-! ## The two products' index maps

Both products contract the second axis of each operand: the left operand is read at (row of the output, contraction
position), the right operand at (column of the output, contraction position). -/

/-- The projections' product reads its left operand in the output's row. -/
theorem proj_lhs_row (i : S512x256.Idx) (c : dot_S512x2048_S256x2048_S512x256_1_1_0_0_n_n.contr.Idx) :
    (dot_S512x2048_S256x2048_S512x256_1_1_0_0_n_n.lhsIdx i c 0).val = (i 0).val := rfl

/-- The projections' product reads its right operand in the row numbered by the output's column. -/
theorem proj_rhs_row (i : S512x256.Idx) (c : dot_S512x2048_S256x2048_S512x256_1_1_0_0_n_n.contr.Idx) :
    (dot_S512x2048_S256x2048_S512x256_1_1_0_0_n_n.rhsIdx i c 0).val = (i 1).val := rfl

/-- The down-projection's product reads its left operand in the output's row. -/
theorem down_lhs_row (i : S512x2048.Idx) (c : dot_S512x256_S2048x256_S512x2048_1_1_0_0_n_n.contr.Idx) :
    (dot_S512x256_S2048x256_S512x2048_1_1_0_0_n_n.lhsIdx i c 0).val = (i 0).val := rfl

/-- The down-projection's product reads its right operand in the row numbered by the output's column. -/
theorem down_rhs_row (i : S512x2048.Idx) (c : dot_S512x256_S2048x256_S512x2048_1_1_0_0_n_n.contr.Idx) :
    (dot_S512x256_S2048x256_S512x2048_1_1_0_0_n_n.rhsIdx i c 0).val = (i 1).val := rfl

/-! ## Projections and hidden entries -/

/-- A projection entry of the block at (p, k): activation row p against dequantized weight row k, over the 2048
    contracted positions. -/
theorem proj_apply (x : Vec Ideal S512x2048 .f32) (v : Vec Ideal S256x2048 .i32) (s : Vec Ideal S256x1 .f32)
    (p : Fin 512) (k : Fin 256) :
    matmul dot_S512x2048_S256x2048_S512x256_1_1_0_0_n_n none
        (truncf .bf16 (shapeCast S512x2048 x shapeCasts_S512x2048_S512x2048) bitsLt_bf16_f32)
        (truncf .bf16
          (mulf (subf (sitofp (F := Ideal) .f32 v) (broadcast S256x2048 (Scalar.ofBits (F := Ideal) .f32 0x43000000#32)))
            (broadcastTo S256x2048 (shapeCast S256x1 s shapeCasts_S256x1_S256x1) broadcasts_S256x1_S256x2048))
          bitsLt_bf16_f32)
        (constant S512x256 .f32 0x00000000#32) (ix2 p k)
      = Cert.Spec.proj (fun d : Fin 2048 => x (ix2 p d)) (fun d => v (ix2 k d)) (s (ix2 k 0)) := by
  refine (Cert.LibRowDot.matmul_zero_rr (M := 512) (K := 2048) (N := 256)
    dot_S512x2048_S256x2048_S512x256_1_1_0_0_n_n rfl rfl proj_lhs_row
    (fun i c => DotDims.lhsIdx_val_of_single _ (cl := 1) rfl i c) proj_rhs_row
    (fun i c => DotDims.rhsIdx_val_of_single _ (cr := 1) rfl i c) none _ _ p k).trans ?_
  refine Finset.sum_congr rfl fun d _ => ?_
  rw [truncf_apply, truncf_apply, shapeCast_self, deq_apply]

/-- A hidden entry of the block at (p, k), from its gate and up projections g and u read there:
    (g · logistic g) · u is silu(gate) · up. -/
theorem hidden_apply (x : Vec Ideal S512x2048 .f32) (vg : Vec Ideal S256x2048 .i32) (sg : Vec Ideal S256x1 .f32)
    (vu : Vec Ideal S256x2048 .i32) (su : Vec Ideal S256x1 .f32) (g u : FVec Ideal S512x256 .f32)
    (p : Fin 512) (k : Fin 256)
    (hg : g (ix2 p k) = Cert.Spec.proj (fun d : Fin 2048 => x (ix2 p d)) (fun d => vg (ix2 k d)) (sg (ix2 k 0)))
    (hu : u (ix2 p k) = Cert.Spec.proj (fun d : Fin 2048 => x (ix2 p d)) (fun d => vu (ix2 k d)) (su (ix2 k 0))) :
    (truncf .bf16 (mulf (mulf g (logistic g)) u) bitsLt_bf16_f32 : FVec Ideal S512x256 .bf16) (ix2 p k)
      = Cert.Spec.hidden (fun d : Fin 2048 => x (ix2 p d)) (fun d => vg (ix2 k d)) (fun d => vu (ix2 k d))
          (sg (ix2 k 0)) (su (ix2 k 0)) := by
  unfold Cert.Spec.hidden
  rw [← hg, ← hu]
  rfl

/-! ## The block's partial product and the accumulating step -/

/-- The block's partial product at (p, q): the hidden entries of activation row p against the dequantized row q of
    the down-projection, over the block's 256 hidden positions. -/
theorem partial_apply (v0 : Vec Ideal S512x2048 .f32) (v3 : Vec Ideal S256x2048 .i32) (v7 : Vec Ideal S256x1 .f32)
    (v15 : Vec Ideal S256x2048 .i32) (v19 : Vec Ideal S256x1 .f32) (v27 : Vec Ideal S2048x256 .i32)
    (v31 : Vec Ideal S2048x1 .f32) (p : Fin 512) (q : Fin 2048) :
    Gen.k0_pay2 (F := Ideal) v0 v3 v7 v15 v19 v27 v31 (ix2 p q)
      = ∑ k : Fin 256,
          Cert.Spec.hidden (fun d : Fin 2048 => v0 (ix2 p d)) (fun d => v3 (ix2 k d)) (fun d => v15 (ix2 k d))
              (v7 (ix2 k 0)) (v19 (ix2 k 0))
            * Cert.Spec.wq (v27 (ix2 q k)) (v31 (ix2 q 0)) := by
  unfold Gen.k0_pay2
  refine (Cert.LibRowDot.matmul_zero_rr (M := 512) (K := 256) (N := 2048)
    dot_S512x256_S2048x256_S512x2048_1_1_0_0_n_n rfl rfl down_lhs_row
    (fun i c => DotDims.lhsIdx_val_of_single _ (cl := 1) rfl i c) down_rhs_row
    (fun i c => DotDims.rhsIdx_val_of_single _ (cr := 1) rfl i c) none _ _ p q).trans ?_
  refine Finset.sum_congr rfl fun k _ => ?_
  refine congrArg₂ (· * ·) ?_ ?_
  · exact hidden_apply v0 v3 v7 v15 v19 _ _ p k (proj_apply v0 v3 v7 p k) (proj_apply v0 v15 v19 p k)
  · exact deq_down_apply v27 v31 q k

/-- The accumulating step at an index: what the output block holds plus the partial product. -/
theorem acc_apply (v36 : FVec Ideal S512x2048 .f32) (v43 : Vec Ideal S512x2048 .f32) (i : S512x2048.Idx) :
    Gen.k0_pay1 (F := Ideal) v36 v43 i = v43 i + v36 i := by
  unfold Gen.k0_pay1
  rw [shapeCast_self]
  rfl

end Cert.Payload

end
-- ==== Proof.Blocks.lean ====
/-
  Where each block of each grid point sits in the argument arrays, entry by entry.

  The grid has 16 × 22 points; point t has row-block coordinate t / 22 and hidden-block coordinate t % 22.

  Before the region the host reshapes four arguments: the [4, 2048, 2048] activations to [8192, 2048] (row r of the
  matrix is (batch r / 2048, position r % 2048)), and the three scale vectors ([5632], [5632], [2048]) to one column
  each.

  At point t:
    * the activation block is rows 512 · (t / 22) … 512 · (t / 22) + 511 of the [8192, 2048] matrix, all 2048 columns:
      its entry (p, d) is the activations at (batch, position, d) of row r = 512 · (t / 22) + p;
    * the gate and the up code blocks are rows 256 · (t % 22) … + 255 of their [5632, 2048] arrays, all columns, and their
      scale blocks are the same 256 positions of the [5632] scale vectors;
    * the down-projection's code block is all 2048 rows and columns 256 · (t % 22) … + 255 of its [2048, 5632] array;
    * the down-projection's scale block is the whole [2048] vector.
  So the hidden positions a point touches are the 256 of its hidden block, and the activation rows the 512 of its
  row block.
-/
import proofs.«131068_j50474455662978_1_alg».proof.Proof.Gen.KernelIdeal.Frame
import proofs.«131068_j50474455662978_1_alg».proof.Proof.LibDense
import Idealize.ShloMosaic.Lib.Pipeline.Value
import Idealize.ShloMosaic.Lib.ValueIdx
import Idealize.ShloMosaic.Lib.ValueLayout
import Idealize.ShloMosaic.Lib.StableHlo.Run

noncomputable section

namespace Cert.Blocks

open Cert.KernelIdeal Cert.KernelIdeal.Gen Idealize.ShloMosaic Idealize.ShloMosaic.ValueIdx
open Idealize.ShloMosaic.TcCoe Idealize.SL.Sem

variable {F : FTy → Type} [FloatOps F]
variable (m : (ℓ : Loc nD τ sig) → Buf (Elt F) ℓ)

/-! ## The grid's points -/

/-- The grid has 352 points. -/
theorem point_lt (t : Fin cfg0.N) : t.val < 352 := lt_of_lt_of_eq t.isLt N_0

/-- Row of the [8192, 2048] activations that row p of point t's block is. -/
def actRow (t : Fin cfg0.N) (p : Fin 512) : Fin 8192 :=
  ⟨512 * (t.val / 22) + p.val, by have := point_lt t; have := p.isLt; omega⟩
/-- Its batch coordinate in the [4, 2048, 2048] activations. -/
def actBatch (t : Fin cfg0.N) (p : Fin 512) : Fin 4 :=
  ⟨(512 * (t.val / 22) + p.val) / 2048, by have := point_lt t; have := p.isLt; omega⟩
/-- Its sequence coordinate there. -/
def actSeq (t : Fin cfg0.N) (p : Fin 512) : Fin 2048 :=
  ⟨(512 * (t.val / 22) + p.val) % 2048, Nat.mod_lt _ (by decide)⟩
/-- Hidden position, of 5632, that position k of point t's block is. -/
def hidPos (t : Fin cfg0.N) (k : Fin 256) : Fin 5632 :=
  ⟨256 * (t.val % 22) + k.val, by have := k.isLt; omega⟩

/-! ## The windows' block indices, decided over the grid -/

/-- The activation window moves with the row block and takes whole rows. -/
theorem idx0 : ∀ t : Fin cfg0.N, win0_0.index t (0 : Fin 2) = t.val / 22 ∧ win0_0.index t (1 : Fin 2) = 0 :=
  (by decide +kernel : ∀ t : Fin grid0.N, _)
/-- The gate codes' window moves with the hidden block and takes whole rows. -/
theorem idx1 : ∀ t : Fin cfg0.N, win0_1.index t (0 : Fin 2) = t.val % 22 ∧ win0_1.index t (1 : Fin 2) = 0 :=
  (by decide +kernel : ∀ t : Fin grid0.N, _)
/-- The gate scales' window moves with the hidden block. -/
theorem idx2 : ∀ t : Fin cfg0.N, win0_2.index t (0 : Fin 2) = t.val % 22 ∧ win0_2.index t (1 : Fin 2) = 0 :=
  (by decide +kernel : ∀ t : Fin grid0.N, _)
/-- The up codes' window moves with the hidden block and takes whole rows. -/
theorem idx3 : ∀ t : Fin cfg0.N, win0_3.index t (0 : Fin 2) = t.val % 22 ∧ win0_3.index t (1 : Fin 2) = 0 :=
  (by decide +kernel : ∀ t : Fin grid0.N, _)
/-- The up scales' window moves with the hidden block. -/
theorem idx4 : ∀ t : Fin cfg0.N, win0_4.index t (0 : Fin 2) = t.val % 22 ∧ win0_4.index t (1 : Fin 2) = 0 :=
  (by decide +kernel : ∀ t : Fin grid0.N, _)
/-- The down-projection codes' window takes all rows and moves along the columns with the hidden block. -/
theorem idx5 : ∀ t : Fin cfg0.N, win0_5.index t (0 : Fin 2) = 0 ∧ win0_5.index t (1 : Fin 2) = t.val % 22 :=
  (by decide +kernel : ∀ t : Fin grid0.N, _)
/-- The down-projection scales' window is the whole column at every point. -/
theorem idx6 : ∀ t : Fin cfg0.N, win0_6.index t (0 : Fin 2) = 0 ∧ win0_6.index t (1 : Fin 2) = 0 :=
  (by decide +kernel : ∀ t : Fin grid0.N, _)

/-! ## The host's reshapes before the region -/

/-- The activations as the region finds them: the [4, 2048, 2048] argument reshaped to [8192, 2048]. -/
theorem V_main_v0 (c : Dev nD) :
    (V m c main_v0 : S8192x2048.Idx → Elt F .f32)
      = shapeCast S8192x2048 (m ((c : Thread nD τ).loc main_arg0) : S4x2048x2048.Idx → Elt F .f32)
          shapeCasts_S4x2048x2048_S8192x2048 := by
  show StableHlo.after hostOps0 (fun b => m (c, b)) (Proc.devRef .tc main_v0) = _
  after_results
  rfl

/-- The gate scales as the region finds them: the [5632] argument as one column. -/
theorem V_main_v1 (c : Dev nD) :
    (V m c main_v1 : S5632x1.Idx → Elt F .f32)
      = shapeCast S5632x1 (m ((c : Thread nD τ).loc main_arg2) : S5632.Idx → Elt F .f32) shapeCasts_S5632_S5632x1 := by
  show StableHlo.after hostOps0 (fun b => m (c, b)) (Proc.devRef .tc main_v1) = _
  after_results
  rfl

/-- The up scales as the region finds them: the [5632] argument as one column. -/
theorem V_main_v2 (c : Dev nD) :
    (V m c main_v2 : S5632x1.Idx → Elt F .f32)
      = shapeCast S5632x1 (m ((c : Thread nD τ).loc main_arg4) : S5632.Idx → Elt F .f32) shapeCasts_S5632_S5632x1 := by
  show StableHlo.after hostOps0 (fun b => m (c, b)) (Proc.devRef .tc main_v2) = _
  after_results
  rfl

/-- The down-projection's scales as the region finds them: the [2048] argument as one column. -/
theorem V_main_v3 (c : Dev nD) :
    (V m c main_v3 : S2048x1.Idx → Elt F .f32)
      = shapeCast S2048x1 (m ((c : Thread nD τ).loc main_arg6) : S2048.Idx → Elt F .f32) shapeCasts_S2048_S2048x1 := by
  show StableHlo.after hostOps0 (fun b => m (c, b)) (Proc.devRef .tc main_v3) = _
  after_results
  rfl

/-! ## The blocks, entry by entry -/

/-- The activation block at (p, d): the argument at the batch and position of row 512 · (t / 22) + p, column d. -/
theorem blk0 (c : Dev nD) (t : Fin cfg0.N) (p : Fin 512) (d : Fin 2048) :
    (iblk m c 0 t : Vec F S512x2048 .f32) (ix2 p d)
      = (m ((c : Thread nD τ).loc main_arg0) : S4x2048x2048.Idx → Elt F .f32) (ix3 (actBatch t p) (actSeq t p) d) := by
  obtain ⟨e0, e1⟩ := idx0 t
  unfold iblk
  rw [View.read_apply]
  show V m c main_v0 _ = _
  rw [V_main_v0]
  refine shapeCast_apply _ _ _ _ ?_
  show (S4x2048x2048.rowMajor (ix3 (actBatch t p) (actSeq t p) d)).val = (S8192x2048.rowMajor _).val
  rw [Shape.rowMajor_val_three, Shape.rowMajor_val_two]
  show ((512 * (t.val / 22) + p.val) / 2048 * 2048 + (512 * (t.val / 22) + p.val) % 2048) * 2048 + d.val
    = (win0_0.index t (0 : Fin 2) * 512 + 1 * p.val) * 2048 + (win0_0.index t (1 : Fin 2) * 2048 + 1 * d.val)
  rw [e0, e1]
  omega

/-- The gate codes' block at (k, d): the argument at row 256 · (t % 22) + k, column d. -/
theorem blk1 (c : Dev nD) (t : Fin cfg0.N) (k : Fin 256) (d : Fin 2048) :
    (iblk m c 1 t : Vec F S256x2048 .i32) (ix2 k d)
      = (m ((c : Thread nD τ).loc main_arg1) : S5632x2048.Idx → Elt F .i32) (ix2 (hidPos t k) d) := by
  obtain ⟨e0, e1⟩ := idx1 t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 256 + 1 * k.val = 256 * (t.val % 22) + k.val; rw [e0]; omega
  | ⟨1, _⟩ => show win0_1.index t (1 : Fin 2) * 2048 + 1 * d.val = d.val; rw [e1]; omega

/-- The up codes' block at (k, d): the argument at row 256 · (t % 22) + k, column d. -/
theorem blk3 (c : Dev nD) (t : Fin cfg0.N) (k : Fin 256) (d : Fin 2048) :
    (iblk m c 3 t : Vec F S256x2048 .i32) (ix2 k d)
      = (m ((c : Thread nD τ).loc main_arg3) : S5632x2048.Idx → Elt F .i32) (ix2 (hidPos t k) d) := by
  obtain ⟨e0, e1⟩ := idx3 t
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 256 + 1 * k.val = 256 * (t.val % 22) + k.val; rw [e0]; omega
  | ⟨1, _⟩ => show win0_3.index t (1 : Fin 2) * 2048 + 1 * d.val = d.val; rw [e1]; omega

/-- The down-projection codes' block at (n, k): the argument at row n, column 256 · (t % 22) + k. -/
theorem blk5 (c : Dev nD) (t : Fin cfg0.N) (n : Fin 2048) (k : Fin 256) :
    (iblk m c 5 t : Vec F S2048x256 .i32) (ix2 n k)
      = (m ((c : Thread nD τ).loc main_arg5) : S2048x5632.Idx → Elt F .i32) (ix2 n (hidPos t k)) := by
  obtain ⟨e0, e1⟩ := idx5 t
  unfold iblk
  rw [View.read_apply]
  show V m c main_arg5 _ = m (c.tc.loc main_arg5) _
  rw [V_main_arg5]
  congr 1
  funext a
  apply Fin.ext
  match a with
  | ⟨0, _⟩ => show win0_5.index t (0 : Fin 2) * 2048 + 1 * n.val = n.val; rw [e0]; omega
  | ⟨1, _⟩ => show win0_5.index t (1 : Fin 2) * 256 + 1 * k.val = 256 * (t.val % 22) + k.val; rw [e1]; omega

/-- The gate scales' block at (k, 0): the argument at position 256 · (t % 22) + k. -/
theorem blk2 (c : Dev nD) (t : Fin cfg0.N) (k : Fin 256) :
    (iblk m c 2 t : Vec F S256x1 .f32) (ix2 k (0 : Fin 1))
      = (m ((c : Thread nD τ).loc main_arg2) : S5632.Idx → Elt F .f32) (ix1 (hidPos t k)) := by
  obtain ⟨e0, e1⟩ := idx2 t
  unfold iblk
  rw [View.read_apply]
  show V m c main_v1 _ = _
  rw [V_main_v1]
  refine Eq.trans (congrArg _ ?_) (Cert.LibDense.shapeCast_a_a1_apply _ shapeCasts_S5632_S5632x1 (hidPos t k) 0)
  funext a
  apply Fin.ext
  match a with
  | ⟨0, _⟩ => show win0_2.index t (0 : Fin 2) * 256 + 1 * k.val = 256 * (t.val % 22) + k.val; rw [e0]; omega
  | ⟨1, _⟩ => show win0_2.index t (1 : Fin 2) * 1 + 1 * 0 = 0; rw [e1]

/-- The up scales' block at (k, 0): the argument at position 256 · (t % 22) + k. -/
theorem blk4 (c : Dev nD) (t : Fin cfg0.N) (k : Fin 256) :
    (iblk m c 4 t : Vec F S256x1 .f32) (ix2 k (0 : Fin 1))
      = (m ((c : Thread nD τ).loc main_arg4) : S5632.Idx → Elt F .f32) (ix1 (hidPos t k)) := by
  obtain ⟨e0, e1⟩ := idx4 t
  unfold iblk
  rw [View.read_apply]
  show V m c main_v2 _ = _
  rw [V_main_v2]
  refine Eq.trans (congrArg _ ?_) (Cert.LibDense.shapeCast_a_a1_apply _ shapeCasts_S5632_S5632x1 (hidPos t k) 0)
  funext a
  apply Fin.ext
  match a with
  | ⟨0, _⟩ => show win0_4.index t (0 : Fin 2) * 256 + 1 * k.val = 256 * (t.val % 22) + k.val; rw [e0]; omega
  | ⟨1, _⟩ => show win0_4.index t (1 : Fin 2) * 1 + 1 * 0 = 0; rw [e1]

/-- The down-projection scales' block at (n, 0): the argument at n. -/
theorem blk6 (c : Dev nD) (t : Fin cfg0.N) (n : Fin 2048) :
    (iblk m c 6 t : Vec F S2048x1 .f32) (ix2 n (0 : Fin 1))
      = (m ((c : Thread nD τ).loc main_arg6) : S2048.Idx → Elt F .f32) (ix1 n) := by
  obtain ⟨e0, e1⟩ := idx6 t
  unfold iblk
  rw [View.read_apply]
  show V m c main_v3 _ = _
  rw [V_main_v3]
  refine Eq.trans (congrArg _ ?_) (Cert.LibDense.shapeCast_a_a1_apply _ shapeCasts_S2048_S2048x1 n 0)
  funext a
  apply Fin.ext
  match a with
  | ⟨0, _⟩ => show win0_6.index t (0 : Fin 2) * 2048 + 1 * n.val = n.val; rw [e0]; omega
  | ⟨1, _⟩ => show win0_6.index t (1 : Fin 2) * 1 + 1 * 0 = 0; rw [e1]

/-- The coordinates of the named rows and positions, as numbers. -/
theorem actRow_val (t : Fin cfg0.N) (p : Fin 512) : (actRow t p).val = 512 * (t.val / 22) + p.val := rfl
theorem actBatch_val (t : Fin cfg0.N) (p : Fin 512) : (actBatch t p).val = (512 * (t.val / 22) + p.val) / 2048 := rfl
theorem actSeq_val (t : Fin cfg0.N) (p : Fin 512) : (actSeq t p).val = (512 * (t.val / 22) + p.val) % 2048 := rfl
theorem hidPos_val (t : Fin cfg0.N) (k : Fin 256) : (hidPos t k).val = 256 * (t.val % 22) + k.val := rfl
/-- A row of the matrix is its batch's 2048 rows down plus its position. -/
theorem actRow_split (t : Fin cfg0.N) (p : Fin 512) : (actRow t p).val = (actBatch t p).val * 2048 + (actSeq t p).val := by
  show 512 * (t.val / 22) + p.val = (512 * (t.val / 22) + p.val) / 2048 * 2048 + (512 * (t.val / 22) + p.val) % 2048
  omega

end Cert.Blocks

end
-- ==== Proof.LibGatedMlp.lean ====
/-
  General facts, at the exact instance (floats as extended reals), for a gated feed-forward block whose hidden
  axis is cut into equal blocks, one per device:

  * a sum over an axis of `nB · H` entries is the sum over the `nB` blocks of the sums over each block's `H` entries
    (associativity and commutativity only: no finiteness);
  * at a real `u`, the quotient `u / (1 + e^(-u))` and the product `u · logistic u` are one number,
    `u · (1 + e^(-u))⁻¹` (the two spellings of `silu`);
  * hence the row-by-column entry `Σ_K gate_K · silu(up_K) · wd_K` of the whole block, `gate_K = Σ_i x_i · wg_{iK}`,
    `up_K = Σ_i x_i · wu_{iK}`, written with the quotient, is the sum over the blocks of the same entry of each block
    written with `logistic` — when `x` and `wu` have real entries, which makes every `up_K` real;
  * a balanced pairwise sum of thirty-two terms is their sum in order.
-/
import Idealize.ShloMosaic.PureOps.Ideal
import Idealize.ShloMosaic.PureOps.Ideal.Laws
import proofs.«131068_j50474455662978_1_alg».proof.Proof.LibRealEntries
import Mathlib.Tactic

noncomputable section

namespace Cert.Lib.GatedMlp

open Idealize.ShloMosaic Cert.Lib.RealEntries
open scoped BigOperators

/-- Entry `k` of block `q` of an axis of `nB` blocks of `H` entries each. -/
def blk {nB H : ℕ} (q : Fin nB) (k : Fin H) : Fin (nB * H) :=
  ⟨q.val * H + k.val, by
    calc q.val * H + k.val < q.val * H + H := Nat.add_lt_add_left k.isLt _
      _ = (q.val + 1) * H := (Nat.succ_mul _ _).symm
      _ ≤ nB * H := Nat.mul_le_mul_right _ q.isLt⟩

@[simp] theorem blk_val {nB H : ℕ} (q : Fin nB) (k : Fin H) : (blk q k).val = q.val * H + k.val := rfl

/-- A sum over `nB · H` entries, block by block. -/
theorem sum_blocks {M : Type*} [AddCommMonoid M] {nB H : ℕ} (f : Fin (nB * H) → M) :
    ∑ K, f K = ∑ q : Fin nB, ∑ k : Fin H, f (blk q k) := by
  rw [← Equiv.sum_comp finProdFinEquiv f, Fintype.sum_prod_type]
  refine Finset.sum_congr rfl fun q _ => Finset.sum_congr rfl fun k _ => congrArg f (Fin.ext ?_)
  show k.val + H * q.val = q.val * H + k.val
  rw [Nat.mul_comm, Nat.add_comm]

/-- The two spellings of `silu` at a real number. -/
theorem silu_real (u : ℝ) :
    Ideal.div (u : EReal) (1 + Ideal.exp (-(u : EReal))) = (u : EReal) * Ideal.logistic (u : EReal) := by
  have h : (1 : EReal) + Ideal.exp (-(u : EReal)) = ((1 + Real.exp (-u) : ℝ) : EReal) := by
    rw [← EReal.coe_neg, Ideal.exp_coe, EReal.coe_add, EReal.coe_one]
  have hpos : (1 + Real.exp (-u) : ℝ) ≠ 0 := ne_of_gt (by positivity)
  rw [h, Ideal.div_coe hpos, Ideal.logistic_coe, one_div]

/-- The same at an extended real known to be real. -/
theorem silu_isR {u : EReal} (hu : IsR u) : Ideal.div u (1 + Ideal.exp (-u)) = u * Ideal.logistic u := by
  obtain ⟨r, rfl⟩ := hu
  exact silu_real r

/-- One entry of the gated block over the whole hidden axis, spelt with the quotient, is the sum over the blocks of
    the block's entry spelt with `logistic`. -/
theorem gated_blocks {nB H : ℕ} {I : Type*} [Fintype I] (x : I → EReal) (wg wu : I → Fin (nB * H) → EReal)
    (wd : Fin (nB * H) → EReal) (hx : ∀ i, IsR (x i)) (hwu : ∀ i K, IsR (wu i K)) :
    ∑ K, ((∑ i, x i * wg i K) * Ideal.div (∑ i, x i * wu i K) (1 + Ideal.exp (-(∑ i, x i * wu i K)))) * wd K
      = ∑ q : Fin nB, ∑ k : Fin H,
          ((∑ i, x i * wg i (blk q k)) * ((∑ i, x i * wu i (blk q k)) * Ideal.logistic (∑ i, x i * wu i (blk q k))))
            * wd (blk q k) := by
  rw [sum_blocks]
  refine Finset.sum_congr rfl fun q _ => Finset.sum_congr rfl fun k _ => ?_
  rw [silu_isR (isR_sum _ _ fun i _ => (hx i).mul (hwu i _))]

/-- A balanced pairwise sum of thirty-two terms is their sum in order. -/
theorem tree32 {M : Type*} [AddCommMonoid M] (a : Fin 32 → M) :
    ((((a 0 + a 1) + (a 2 + a 3)) + ((a 4 + a 5) + (a 6 + a 7)))
        + (((a 8 + a 9) + (a 10 + a 11)) + ((a 12 + a 13) + (a 14 + a 15))))
      + ((((a 16 + a 17) + (a 18 + a 19)) + ((a 20 + a 21) + (a 22 + a 23)))
        + (((a 24 + a 25) + (a 26 + a 27)) + ((a 28 + a 29) + (a 30 + a 31))))
      = ∑ q, a q := by
  simp only [Fin.sum_univ_succ, Fin.sum_univ_zero, add_zero]
  simp only [add_assoc]
  rfl

end Cert.Lib.GatedMlp

end
-- ==== Proof.Layout.lean ====
/-
  How the arrays are laid out, read at an index written by its coordinates.

  * Flattening the two leading axes of a [4, 2048, 2048] array gives an [8192, 2048] matrix whose row r = b · 2048 + s
    is the old row (b, s): both arrays list their entries in row-major order, and
    (b · 2048 + s) · 2048 + d is the position of (b, s, d) in the one and of (r, d) in the other. Splitting the
    rows of an [8192, 2048] matrix back into [4, 2048, 2048] is the inverse reading.
  * A vector of length M written as an [M, 1] column has, in row k, the vector's k-th entry.
  * The hidden axis of 5632 = 22 · 256 entries is 22 consecutive blocks of 256: a sum over the axis is the sum
    over the blocks, taken in order, of each block's sum (associativity and commutativity of the addition
    only). The same is said for a sum over the naturals below 22, the form a left-to-right accumulation over
    the blocks produces.
-/
import Idealize.ShloMosaic.Lib.ValueIdx
import Idealize.ShloMosaic.Lib.ValueLayout
import Idealize.ShloMosaic.Lib.Pipeline.Value
import Idealize.ShloMosaic.PureOps.Ideal
import proofs.«131068_j50474455662978_1_alg».proof.Proof.LibDense
import proofs.«131068_j50474455662978_1_alg».proof.Proof.LibGatedMlp
import Mathlib.Tactic

noncomputable section

namespace Cert.Layout

open Idealize.ShloMosaic Idealize.ShloMosaic.ValueIdx
open scoped BigOperators

variable {α : Type}

/-! ## The two leading axes flattened, and split again -/

/-- A [4, 2048, 2048] array cast to [8192, 2048] reads, at (r, d) with r = b · 2048 + s, the array at (b, s, d). -/
theorem reshape_rows (x : (⟨3, ![4, 2048, 2048]⟩ : Shape).Idx → α)
    (h : (⟨3, ![4, 2048, 2048]⟩ : Shape).ShapeCasts ⟨2, ![8192, 2048]⟩) (b : Fin 4) (s d : Fin 2048) (r : Fin 8192)
    (hr : r.val = b.val * 2048 + s.val) :
    shapeCast ⟨2, ![8192, 2048]⟩ x h (ix2 r d) = x (ix3 b s d) :=
  shapeCast_apply x h _ _ (by
    rw [Shape.rowMajor_val_three, Shape.rowMajor_val_two]
    show (b.val * 2048 + s.val) * 2048 + d.val = r.val * 2048 + d.val
    rw [hr])

/-- An [8192, 2048] matrix cast to [4, 2048, 2048] reads, at (b, s, n), the matrix at (r, n) with r = b · 2048 + s. -/
theorem reshape_back (y : (⟨2, ![8192, 2048]⟩ : Shape).Idx → α)
    (h : (⟨2, ![8192, 2048]⟩ : Shape).ShapeCasts ⟨3, ![4, 2048, 2048]⟩) (b : Fin 4) (s n : Fin 2048) (r : Fin 8192)
    (hr : r.val = b.val * 2048 + s.val) :
    shapeCast ⟨3, ![4, 2048, 2048]⟩ y h (ix3 b s n) = y (ix2 r n) :=
  shapeCast_apply y h _ _ (by
    rw [Shape.rowMajor_val_three, Shape.rowMajor_val_two]
    show r.val * 2048 + n.val = (b.val * 2048 + s.val) * 2048 + n.val
    rw [hr])

/-- The row of (b, s): below 8192, and its value is b · 2048 + s. -/
def rowOf (b : Fin 4) (s : Fin 2048) : Fin 8192 := ⟨b.val * 2048 + s.val, by omega⟩

@[simp] theorem rowOf_val (b : Fin 4) (s : Fin 2048) : (rowOf b s).val = b.val * 2048 + s.val := rfl

/-! ## A vector as a column -/

/-- A [5632] vector cast to a [5632, 1] column reads, at (k, 0), the vector at k. -/
theorem column_5632 (v : (⟨1, ![5632]⟩ : Shape).Idx → α) (h : (⟨1, ![5632]⟩ : Shape).ShapeCasts ⟨2, ![5632, 1]⟩)
    (k : Fin 5632) : shapeCast ⟨2, ![5632, 1]⟩ v h (ix2 k (0 : Fin 1)) = v (ix1 k) :=
  Cert.LibDense.shapeCast_a_a1_apply v h k 0

/-- A [2048] vector cast to a [2048, 1] column reads, at (k, 0), the vector at k. -/
theorem column_2048 (v : (⟨1, ![2048]⟩ : Shape).Idx → α) (h : (⟨1, ![2048]⟩ : Shape).ShapeCasts ⟨2, ![2048, 1]⟩)
    (k : Fin 2048) : shapeCast ⟨2, ![2048, 1]⟩ v h (ix2 k (0 : Fin 1)) = v (ix1 k) :=
  Cert.LibDense.shapeCast_a_a1_apply v h k 0

/-! ## The hidden axis, block by block -/

/-- A sum over the 5632 hidden entries is the sum over the 22 blocks of the sums over each block's 256 entries. -/
theorem sum_hidden_blocks {M : Type*} [AddCommMonoid M] (f : Fin 5632 → M) :
    ∑ q : Fin 22, ∑ k : Fin 256, f ⟨q.val * 256 + k.val, by omega⟩ = ∑ H : Fin 5632, f H :=
  (Cert.Lib.GatedMlp.sum_blocks (nB := 22) (H := 256) f).symm

/-- The same for any function of a natural block number that is, on the 22 blocks, the block's sum: its sum over
    the naturals below 22 is the sum over the whole hidden axis. -/
theorem sum_hidden_blocks_of {M : Type*} [AddCommMonoid M] (f : Fin 5632 → M) (g : ℕ → M)
    (hg : ∀ q : Fin 22, g q.val = ∑ k : Fin 256, f ⟨q.val * 256 + k.val, by omega⟩) :
    ∑ q ∈ Finset.range 22, g q = ∑ H : Fin 5632, f H := by
  rw [← sum_hidden_blocks f, ← Fin.sum_univ_eq_sum_range g 22]
  exact Finset.sum_congr rfl fun q _ => hg q

/-- The same with the block's sum written out under the bound on the block number. -/
theorem sum_hidden_blocks_range {M : Type*} [AddCommMonoid M] (f : Fin 5632 → M) :
    ∑ q ∈ Finset.range 22, (if hq : q < 22 then ∑ k : Fin 256, f ⟨q * 256 + k.val, by omega⟩ else 0)
      = ∑ H : Fin 5632, f H :=
  sum_hidden_blocks_of f _ fun q => dif_pos q.isLt

end Cert.Layout

end
-- ==== Proof.KernelSum.lean ====
/-
  The running contents of the output's staging buffer, at the exact instance, as sums.

  Fix the launch arrays. For an activation row r (of the 8192 flattened rows), an output column n and a hidden index H,
  the summand is the hidden entry H of row r — silu(gate) · up, both projections of row r against weight row H —
  times the dequantized down-projection weight (n, H). An output entry is the sum of the summands over the whole
  hidden axis of 5632 indices. The grid cuts that axis into 22 blocks of 256; the body's partial product at a point
  is the sum over that point's block, and the buffer, reset at a run's first point and added to afterwards, holds after
  the j-th point of a run the sum over the first j + 1 blocks.
-/
import proofs.«131068_j50474455662978_1_alg».proof.Proof.IdealBody
import proofs.«131068_j50474455662978_1_alg».proof.Proof.Payload
import proofs.«131068_j50474455662978_1_alg».proof.Proof.Blocks
import proofs.«131068_j50474455662978_1_alg».proof.Proof.Layout
import proofs.«131068_j50474455662978_1_alg».proof.Proof.Spec

noncomputable section

namespace Cert.KernelSum

open Cert.KernelIdeal Cert.KernelIdeal.Gen Cert.KernelIdeal.Body Cert.Blocks
open Idealize.ShloMosaic Idealize.ShloMosaic.ValueIdx Idealize.ShloMosaic.TcCoe Idealize.SL.Sem
open scoped BigOperators

variable (m : (ℓ : Loc nD τ sig) → Buf (Elt Ideal) ℓ) (c : Dev nD)

/-- The summand of an output entry: hidden entry `H` of activation row `r`, times the down-projection weight `(n, H)`. -/
def term (r : Fin 8192) (n : Fin 2048) (H : Fin 5632) : EReal :=
  Cert.Spec.hidden
      (fun d : Fin 2048 => m ((c.tc : Thread nD τ).loc main_arg0)
        (ix3 (⟨r.val / 2048, by have := r.isLt; omega⟩ : Fin 4) (⟨r.val % 2048, Nat.mod_lt _ (by decide)⟩ : Fin 2048) d))
      (fun d : Fin 2048 => m ((c.tc : Thread nD τ).loc main_arg1) (ix2 H d))
      (fun d : Fin 2048 => m ((c.tc : Thread nD τ).loc main_arg3) (ix2 H d))
      (m ((c.tc : Thread nD τ).loc main_arg2) (ix1 H)) (m ((c.tc : Thread nD τ).loc main_arg4) (ix1 H))
    * Cert.Spec.wq (m ((c.tc : Thread nD τ).loc main_arg5) (ix2 n H)) (m ((c.tc : Thread nD τ).loc main_arg6) (ix1 n))

/-- The sum of the summands over hidden block `j` (zero for a block number beyond the axis). -/
def blockSum (r : Fin 8192) (n : Fin 2048) (j : ℕ) : EReal :=
  if hj : j < 22 then ∑ k : Fin 256, term m c r n ⟨256 * j + k.val, by have := k.isLt; omega⟩ else 0

/-- The body's partial product at point `t`, read at `(p, q)`: the sum over the point's hidden block of the summands of
    the point's activation row `p` and output column `q`. -/
theorem part_apply (t : Fin cfg0.N) (p : Fin 512) (q : Fin 2048) :
    part m c t (ix2 p q) = blockSum m c (actRow t p) q (t.val % 22) := by
  unfold part
  rw [Cert.Payload.partial_apply]
  unfold blockSum
  rw [dif_pos (Nat.mod_lt _ (by decide))]
  refine Finset.sum_congr rfl fun k _ => ?_
  simp only [blk0 m c t, blk1 m c t, blk2 m c t, blk3 m c t, blk4 m c t, blk5 m c t, blk6 m c t]
  rfl

/-- After point `n` the output's buffer holds, at `(p, q)`, the sum over the hidden blocks the run has met so far. -/
theorem acc_apply_sum : ∀ (n : ℕ) (hn : n < cfg0.N) (p : Fin 512) (q : Fin 2048),
    acc m c n hn (ix2 p q) = ∑ j ∈ Finset.range (n % 22 + 1), blockSum m c (actRow ⟨n, hn⟩ p) q j
  | 0, hn, p, q => by
    show part m c ⟨0, hn⟩ (ix2 p q) = _
    rw [part_apply]
    simp only [Nat.zero_mod, Nat.zero_add, Finset.sum_range_one]
  | n + 1, hn, p, q => by
    by_cases h0 : (n + 1) % 22 = 0
    · rw [acc_first m c ⟨n + 1, hn⟩ h0, part_apply]
      simp only [h0, Nat.zero_add, Finset.sum_range_one]
    · rw [acc_later m c ⟨n + 1, hn⟩ h0, Cert.Payload.acc_apply, part_apply]
      have hrow : actRow ⟨n + 1, hn⟩ p = actRow ⟨n, Nat.lt_of_succ_lt hn⟩ p :=
        Fin.ext (by simp only [actRow_val]; omega)
      have hmod : (n + 1) % 22 = n % 22 + 1 := by omega
      show acc m c n _ (ix2 p q) + _ = _
      rw [acc_apply_sum n (Nat.lt_of_succ_lt hn) p q, hrow, hmod, Finset.sum_range_succ (n := n % 22 + 1)]

end Cert.KernelSum

end
-- ==== Proof.OutCover.lean ====
/-
  The output array after the run, from what each written-back block holds.

  The output is an [8192, 2048] matrix cut into sixteen blocks of 512 whole rows. The grid's point t works on the
  block of rows 512 · (t / 22) … 512 · (t / 22) + 511, and that block is written back to the array only at the last
  point of its row block, t % 22 = 21 (the points before it accumulate in place).

  If at every writing point the block holds, at (p, q), the value G at (512 · (t / 22) + p, q), then the array ends
  as G: each row r of the array lies in exactly the block written back at point 22 · (r / 512) + 21, the blocks are
  never clipped, and together the sixteen of them cover every index.
-/
import proofs.«131068_j50474455662978_1_alg».proof.Proof.Blocks
import proofs.«131068_j50474455662978_1_alg».proof.Proof.Gen.KernelIdeal.Frame
import Idealize.ShloMosaic.Lib.Pipeline.Value
import Idealize.ShloMosaic.Lib.ValueIdx

set_option maxRecDepth 16384

noncomputable section

namespace Cert.OutCover

open Cert.KernelIdeal Cert.KernelIdeal.Gen Cert.Blocks Idealize.ShloMosaic Idealize.ShloMosaic.ValueIdx
open Idealize.ShloMosaic.TcCoe Idealize.SL.Sem
open Idealize.ShloMosaic.Pipeline (Dat)

variable {F : FTy → Type} [FloatOps F]

/-- The output window moves with the row block and takes whole rows. -/
theorem idx7 : ∀ t : Fin cfg0.N, win0_7.index t (0 : Fin 2) = t.val / 22 ∧ win0_7.index t (1 : Fin 2) = 0 :=
  (by decide +kernel : ∀ t : Fin grid0.N, _)

/-- Its blocks are never clipped. -/
theorem xsize7 : ∀ t : Fin cfg0.N, win0_7.xsize (grid0.coords t) (0 : Fin 2) = 512 ∧ win0_7.xsize (grid0.coords t) (1 : Fin 2) = 2048 :=
  (by decide +kernel : ∀ t : Fin grid0.N, _)

/-- What a writing point writes back is its block of G, when its staging block holds G's entries at the block's rows. -/
theorem flushed_eq (dats : (p : Fin 1) → (c : Dev nD) → Pipeline.Dat τ (Elt F) Unit ℕ (UR sig nD τ) ℕ (cfgs p) c) (c : Dev nD)
    (G : S8192x2048.Idx → Elt F .f32)
    (h : ∀ (t : Fin cfg0.N), (cfg0.win 7).flush t = true → ∀ (p : Fin 512) (q : Fin 2048),
      ((dats 0 c).after 7 t : S512x2048.Idx → Elt F .f32) (ix2 p q) = G (ix2 (actRow t p) q))
    (t : Fin cfg0.N) (hf : (cfg0.win 7).flush t = true) :
    (dats 0 c).flushed 7 t = ((cfg0.win 7).blk t).view.read (Elt F) G := by
  obtain ⟨e0, e1⟩ := idx7 t
  show (cfg0.win 7).cut (grid0.coords t) ((dats 0 c).after 7 t) = _
  funext y
  obtain ⟨p, q, rfl⟩ : ∃ (p : Fin 512) (q : Fin 2048), y = ix2 p q := ⟨y 0, y 1, eq_ix2 y⟩
  rw [View.read_apply]
  refine (h t hf p q).trans (congrArg G (funext fun a => Fin.ext ?_))
  match a with
  | ⟨0, _⟩ => show 512 * (t.val / 22) + p.val = win0_7.index t (0 : Fin 2) * 512 + 1 * p.val; rw [e0]; omega
  | ⟨1, _⟩ => show q.val = win0_7.index t (1 : Fin 2) * 2048 + 1 * q.val; rw [e1]; omega

/-- The output array ends as G: the sixteen written-back blocks cover it. -/
theorem final_of (dats : (p : Fin 1) → (c : Dev nD) → Pipeline.Dat τ (Elt F) Unit ℕ (UR sig nD τ) ℕ (cfgs p) c) (c : Dev nD)
    (G : S8192x2048.Idx → Elt F .f32)
    (h : ∀ (t : Fin cfg0.N), (cfg0.win 7).flush t = true → ∀ (p : Fin 512) (q : Fin 2048),
      ((dats 0 c).after 7 t : S512x2048.Idx → Elt F .f32) (ix2 p q) = G (ix2 (actRow t p) q)) :
    ((dats 0 c).arrAt 7 cfg0.N : S8192x2048.Idx → Elt F .f32) = G :=
  (dats 0 c).arrAt_eq_of_cover 7 G (flushed_eq dats c G h) fun i => by
    have hi0 : (i 0).val < 8192 := (i 0).isLt
    have hi1 : (i 1).val < 2048 := (i 1).isLt
    have hN : cfg0.N = 352 := N_0
    let t : Fin cfg0.N := ⟨22 * ((i 0).val / 512) + 21, by rw [hN]; omega⟩
    have ht : t.val = 22 * ((i 0).val / 512) + 21 := rfl
    obtain ⟨e0, e1⟩ := idx7 t
    obtain ⟨x0, x1⟩ := xsize7 t
    refine ⟨t, (flush0_7 t).mpr (by rw [ht]; omega), ?_⟩
    show i ∈ ((View.whole main_v4).slice (win0_7.rect t)).set
    rw [View.set_slice_whole, Rect.mem_set_unit]
    intro a
    match a with
    | ⟨0, _⟩ =>
      show win0_7.index t (0 : Fin 2) * 512 ≤ (i 0).val ∧ (i 0).val < win0_7.index t (0 : Fin 2) * 512 + win0_7.xsize (grid0.coords t) (0 : Fin 2)
      rw [e0, x0, ht]; omega
    | ⟨1, _⟩ =>
      show win0_7.index t (1 : Fin 2) * 2048 ≤ (i 1).val ∧ (i 1).val < win0_7.index t (1 : Fin 2) * 2048 + win0_7.xsize (grid0.coords t) (1 : Fin 2)
      rw [e1, x1]; omega

end Cert.OutCover

end
-- ==== Proof.Tail.lean ====
/-
  What the program returns, in terms of what the kernel leaves in its output array.

  The kernel writes an [8192, 2048] matrix, the array of its last window. The one host operation after it only
  renames the axes: it reshapes that matrix to [4, 2048, 2048], and the reshaped array is the program's result.
  Nothing after the kernel writes the matrix, so the result is the reshape of the matrix as the kernel's last grid
  point left it. Both arrays list their entries in row-major order; entry (b, s, n) of the result is therefore
  entry (b · 2048 + s, n) of the matrix.
-/
import proofs.«131068_j50474455662978_1_alg».proof.Proof.Gen.KernelIdeal.Frame
import proofs.«131068_j50474455662978_1_alg».proof.Proof.Layout
import Idealize.ShloMosaic.Lib.Pipeline.FrameSuffix
import Idealize.ShloMosaic.Lib.StableHlo.Run
import Idealize.ShloMosaic.Lib.Pipeline.Value
import Idealize.ShloMosaic.Lib.ValueIdx

noncomputable section

namespace Cert.Tail

open Cert.KernelIdeal Cert.KernelIdeal.Gen
open Idealize.ShloMosaic Idealize.ShloMosaic.TcCoe Idealize.SL.Sem Idealize.ShloMosaic.ValueIdx

variable {F : FTy → Type} [FloatOps F] (m : (ℓ : Loc nD τ sig) → Buf (Elt F) ℓ)

/-- The program's result buffer after the lines that follow the kernel: the output window's array, as the last grid
    point left it, reshaped from [8192, 2048] to [4, 2048, 2048]. The one line after the kernel writes the result
    buffer with the reshape of the output array; the output array is one of the pipeline's arrays, so it is read
    at the contents the kernel left, whatever the proof data. -/
theorem tail_result
    (dats : (p : Fin 1) → (c : Dev nD) → Pipeline.Dat τ (Elt F) Unit ℕ (UR sig nD τ) ℕ (cfgs p) c) (c : Dev nD) :
    Pipeline.afterTail₀ cfgs dats 0 (V0 m) [hostOps1] c main_v5
      = shapeCast S4x2048x2048 ((dats 0 c).arrAt 7 cfg0.N) shapeCasts_S8192x2048_S4x2048x2048 := by
  unfold Pipeline.afterTail₀
  show StableHlo.after hostOps1 _ (Proc.devRef .tc main_v5) = _
  after_results
  rw [Pipeline.withArrays_arr spec0 launch0.win.arr_inj c _ _ 7]
  rfl

/-- The same read at an index: entry (b, s, n) of the result is entry (b · 2048 + s, n) of the output array. -/
theorem tail_result_apply
    (dats : (p : Fin 1) → (c : Dev nD) → Pipeline.Dat τ (Elt F) Unit ℕ (UR sig nD τ) ℕ (cfgs p) c) (c : Dev nD)
    (b : Fin 4) (s n : Fin 2048) :
    Pipeline.afterTail₀ cfgs dats 0 (V0 m) [hostOps1] c main_v5 (ix3 b s n)
      = (dats 0 c).arrAt 7 cfg0.N (ix2 (Cert.Layout.rowOf b s) n) := by
  rw [tail_result]
  exact Cert.Layout.reshape_back _ _ b s n _ rfl

end Cert.Tail

end
-- ==== Proof.KernelValue.lean ====
/-
  What the idealized kernel's result array ends holding.

  The output array of the region, f32[8192, 2048], is written back one 512-row block at a time, after the last point of
  each row tile's run over the 22 hidden blocks; by then the staging buffer holds the sum over all 22 blocks, which is
  the sum over the whole hidden axis. The 16 row tiles cover the array, so every entry (r, n) ends at the output entry
  of activation row r and weight row n. The host then reshapes [8192, 2048] to [4, 2048, 2048]: flattened row
  r = b · 2048 + s is (b, s). So the result at (b, s, n) is the specification's entry.
-/
import proofs.«131068_j50474455662978_1_alg».proof.Proof.KernelSum
import proofs.«131068_j50474455662978_1_alg».proof.Proof.IdealFrame
import proofs.«131068_j50474455662978_1_alg».proof.Proof.OutCover
import proofs.«131068_j50474455662978_1_alg».proof.Proof.Tail
import proofs.«131068_j50474455662978_1_alg».proof.Proof.Layout
import proofs.«131068_j50474455662978_1_alg».proof.Proof.Spec

noncomputable section

namespace Cert.KernelValue

open Cert.KernelIdeal Cert.KernelIdeal.Gen Cert.KernelIdeal.Body Cert.Blocks
open Idealize.ShloMosaic Idealize.ShloMosaic.ValueIdx Idealize.ShloMosaic.TcCoe Idealize.SL.Sem
open scoped BigOperators

variable (m : (ℓ : Loc nD τ sig) → Buf (Elt Ideal) ℓ) (c : Dev nD)

open Cert.KernelSum Cert.Layout

/-- The array the region writes: at flattened row `r` and column `n`, the sum of the summands over the whole hidden axis. -/
def written : S8192x2048.Idx → EReal := fun j => ∑ H : Fin 5632, term m c (j 0) (j 1) H

/-- At a point that writes the buffer back — the last of a run — the buffer holds the whole-axis sums of its rows. -/
theorem after_last (t : Fin cfg0.N) (hf : (cfg0.win 7).flush t = true) (p : Fin 512) (q : Fin 2048) :
    ((dats m 0 c).after 7 t : S512x2048.Idx → EReal) (ix2 p q) = written m c (ix2 (actRow t p) q) := by
  have h21 : t.val % 22 = 21 := (flush0_7 t).mp hf
  rw [after_7, acc_apply_sum, h21]
  show ∑ j ∈ Finset.range 22, blockSum m c (actRow t p) q j = ∑ H : Fin 5632, term m c (actRow t p) q H
  exact sum_hidden_blocks_of (term m c (actRow t p) q) (blockSum m c (actRow t p) q) (fun j => by
    unfold blockSum
    rw [dif_pos j.isLt]
    refine Finset.sum_congr rfl fun k _ => congrArg _ (Fin.ext ?_)
    show 256 * j.val + k.val = j.val * 256 + k.val
    omega)

/-- So the region's output array ends holding `written`. -/
theorem final_written : ((dats m 0 c).arrAt 7 cfg0.N : S8192x2048.Idx → EReal) = written m c :=
  Cert.OutCover.final_of (dats m) c (written m c) (fun t hf p q => after_last m c t hf p q)

/-- Flattened row `b · 2048 + s` is activation row `(b, s)`: the written entry there is the specification's. -/
theorem written_rows (b : Fin 4) (s n : Fin 2048) :
    written m c (ix2 (rowOf b s) n)
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix3 b s n) := by
  have hb : (⟨(rowOf b s).val / 2048, by have := (rowOf b s).isLt; omega⟩ : Fin 4) = b :=
    Fin.ext (by have := s.isLt; simp only [rowOf_val]; omega)
  have hs : (⟨(rowOf b s).val % 2048, Nat.mod_lt _ (by decide)⟩ : Fin 2048) = s :=
    Fin.ext (by have := s.isLt; simp only [rowOf_val]; omega)
  show ∑ H : Fin 5632, term m c (rowOf b s) n H = _
  unfold Cert.Spec.result Cert.Spec.outEntry
  refine Finset.sum_congr rfl fun H _ => ?_
  unfold term
  rw [hb, hs]

/-- THE KERNEL'S RUN, READ: every weakly fair execution terminates with the result array at the specification of the
    launch arrays, and the seven arguments unchanged. -/
theorem run_spec (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (funext fun i => by
        obtain ⟨b, s, n, rfl⟩ : ∃ (b : Fin 4) (s n : Fin 2048), i = ix3 b s n := ⟨i 0, i 1, i 2, eq_ix3 i⟩
        rw [Cert.Tail.tail_result_apply m (dats m) c b s n, final_written, written_rows]),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelValue

end
-- ==== Proof.lean ====
/-
  A quantized gated feed-forward block (SwiGLU), kernel against reference, over the extended reals.

  Both programs take activations x of [4, 2048, 2048], three matrices of weight codes with one scale per row, and
  compute, at (b, s, n),

      Σ_H  silu(gate_H) · up_H · Wd(n, H),     gate_H = Σ_d x(b, s, d) · Wg(H, d),   up_H = Σ_d x(b, s, d) · Wu(H, d),

  where a weight is (code − 128) · scale of its row and silu(u) = u · logistic(u). The reference does it with three
  whole contractions and spells silu as u · (1 / (1 + e^(−u))), which is the same function by the definition of
  logistic. The kernel flattens (b, s) to 8192 rows, cuts them into 16 tiles of 512 and the hidden axis into 22 blocks
  of 256, and accumulates each tile's output over the 22 blocks in the output's staging buffer; a change of float
  format is the identity at this instance, and a matrix product into a zero accumulator is the plain sum. The two
  sides differ only in how the sum over the hidden axis is grouped — 22 blocks added left to right against one sum —
  and addition of extended reals is associative and commutative, so no finiteness of the inputs is used.

  The modules: Spec (the function), RefValue (the reference computes it), IdealBody / IdealFrame and BitsBody /
  BitsFrame (the kernel's body at a grid point and the launch, at the exact and at the word-level instance), Payload
  (the body's arithmetic at an index), Blocks (each input block in terms of the launch arrays), KernelSum (the running
  sum), OutCover and Tail (the output array from its blocks; the host reshape), KernelValue (the kernel computes it).
-/
import proofs.«131068_j50474455662978_1_alg».proof.Defs
import proofs.«131068_j50474455662978_1_alg».proof.Proof.Gen.Kernel
import proofs.«131068_j50474455662978_1_alg».proof.Proof.Gen.KernelIdeal
import proofs.«131068_j50474455662978_1_alg».proof.Proof.Gen.ReferenceIdeal
import proofs.«131068_j50474455662978_1_alg».proof.Proof.Gen.Pre_finite_inputs
import proofs.«131068_j50474455662978_1_alg».proof.Proof.BitsFrame
import proofs.«131068_j50474455662978_1_alg».proof.Proof.IdealFrame
import proofs.«131068_j50474455662978_1_alg».proof.Proof.RefValue
import proofs.«131068_j50474455662978_1_alg».proof.Proof.KernelValue

noncomputable section

namespace Cert.Proof

open Idealize.ShloMosaic Idealize.ShloMosaic.TcCoe Idealize.SL.Sem

/-- The kernel as printed runs to its end and leaves its arguments unchanged. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the seven arguments, both programs end with their result arrays at the specification of
    those arguments. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelValue.run_spec m ρ, ?_⟩
  refine (θ_run Cert.ReferenceIdeal.defs _ _).mono (fun _ h c => ⟨(h c).1.trans ?_, (h c).2⟩)
    (Cert.RefValue.run_spec m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
